-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192x4096 : Shape := ⟨2, ![8192, 4096]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048x2048 .f32) (main_arg9 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x2048 .f32) (main_arg1 : FVec F S8192x4096 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S8192x2048 : Shape := ⟨2, ![8192, 2048]⟩
abbrev S8192x4096 : Shape := ⟨2, ![8192, 4096]⟩
abbrev S2048x2048 : Shape := ⟨2, ![2048, 2048]⟩
abbrev S2048 : Shape := ⟨1, ![2048]⟩
abbrev S1x2048 : Shape := ⟨2, ![1, 2048]⟩
abbrev S1024x2048 : Shape := ⟨2, ![1024, 2048]⟩
abbrev S256x2048 : Shape := ⟨2, ![256, 2048]⟩
abbrev S1x256 : Shape := ⟨2, ![1, 256]⟩
abbrev S1024x256 : Shape := ⟨2, ![1024, 256]⟩

abbrev nBuf : Space → Nat
  | .hbm => 22
  | .vmem => 26
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S8192x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S2048x2048, .bf16⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .f32⟩
  | .local _ .vmem, ⟨24, _⟩ => ⟨S1024x256, .f32⟩
  | .local _ .vmem, ⟨25, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  bitsLt_bf16_f32 : FTy.bits .bf16 < FTy.bits .f32
  shapeCasts_S2048_S1x2048 : S2048.ShapeCasts S1x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  concatenates_S8192x2048_S8192x2048_S8192x4096_d1 : Shape.Concatenates [S8192x2048, S8192x2048] S8192x4096 1
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .bf16 = 32 ∨ (Rect.block (s := S2048x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S2048x2048.size a
  hwx0_4 : ∀ i : grid0.Coords, EltTy.bits .bf16 = 32 ∨ (Rect.block (s := S2048x2048) S256x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x2048.size a
  hwx0_7 : ∀ i : grid0.Coords, EltTy.bits .f32 = 32 ∨ (Rect.block (s := S1x2048) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x2048.size a
  hwx0_8 : ∀ i : grid0.Coords, EltTy.bits .f32 = 32 ∨ (Rect.block (s := S1x2048) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S8192x4096.size a
  hwx0_9 : ∀ i : grid0.Coords, EltTy.bits .f32 = 32 ∨ (Rect.block (s := S8192x4096) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x256.size a ≤ S8192x4096.size a
  hwx0_10 : ∀ i : grid0.Coords, EltTy.bits .f32 = 32 ∨ (Rect.block (s := S8192x4096) S1024x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1024x256.size a ≤ S8192x2048.size a
  hwx0_11 : ∀ i : grid0.Coords, EltTy.bits .f32 = 32 ∨ (Rect.block (s := S8192x2048) S1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1024x256.size a ≤ S8192x2048.size a
  hwx0_12 : ∀ i : grid0.Coords, EltTy.bits .f32 = 32 ∨ (Rect.block (s := S8192x2048) S1024x256.size (cc0_transform_12 i) (hinb0_12 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_arg1) S1024x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg1) S1024x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v9_0) S1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9_1) S1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192x4096 : Shape := ⟨2, ![8192, 4096]⟩
abbrev S2048x2048 : Shape := ⟨2, ![2048, 2048]⟩
abbrev S2048 : Shape := ⟨1, ![2048]⟩
abbrev S8192 : Shape := ⟨1, ![8192]⟩
abbrev S2048x8192 : Shape := ⟨2, ![2048, 8192]⟩
abbrev S8192x8192 : Shape := ⟨2, ![8192, 8192]⟩
abbrev S1x8192 : Shape := ⟨2, ![1, 8192]⟩
abbrev S_ : Shape := ⟨0, ![]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S8192x2048, .f32⟩
  | .hbm, ⟨11, _⟩ => ⟨S8192, .f32⟩
  | .hbm, ⟨12, _⟩ => ⟨S2048x8192, .f32⟩
  | .hbm, ⟨13, _⟩ => ⟨S8192x8192, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S_, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S_, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_1 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩

abbrev nD : Nat := 1
abbrev τ : Topo := Topo.v7x

variable {F : FTy → Type} [FloatOps F]

class Facts₀ : Prop where
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x2048_S2048x8192_1_0 : S8192x2048.Transposes [1, 0] S2048x8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  slices_S8192x4096_S8192x2048_0_0 : S8192x4096.Slices ![0, 0] S8192x2048
  slices_S8192x4096_S8192x2048_0_2048 : S8192x4096.Slices ![0, 2048] S8192x2048
  concatenates_S8192x2048_S8192x2048_S8192x4096_d1 : Shape.Concatenates [S8192x2048, S8192x2048] S8192x4096 1
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.KBody.lean ====
/-
  One grid point of the cell's kernel, on whole staging buffers (the program as printed, at any float instance).

  The body reads a [1024, 2048] block of the input batch, four [256, 2048] blocks of the weight matrices, four [1, 256]
  bias blocks and the two [1024, 256] blocks of the state's real and imaginary halves on this tile, and stores the two
  [1024, 256] result blocks, each by one store of the whole buffer. This module states what the two output buffers hold
  afterwards as pure terms of the eleven input blocks and proves the body's triple.
-/
import proofs.«176958_j13529146982869_1_alg».proof.Proof.Gen.Kernel.Launch
import proofs.«176958_j13529146982869_1_alg».proof.Proof.Gen.Kernel.Skeleton
import proofs.«176958_j13529146982869_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is the whole staging buffer -/

abbrev rE : Rect S1024x2048 := Rect.unit (s := S1024x2048) ![0, 0] S1024x2048.size inb_S1024x2048_S1024x2048_0_0
abbrev rW : Rect S256x2048 := Rect.unit (s := S256x2048) ![0, 0] S256x2048.size inb_S256x2048_S256x2048_0_0
abbrev rB : Rect S1x256 := Rect.unit (s := S1x256) ![0, 0] S1x256.size inb_S1x256_S1x256_0_0
abbrev rH : Rect S1024x256 := Rect.unit (s := S1024x256) ![0, 0] S1024x256.size inb_S1024x256_S1024x256_0_0

/-! ## What one grid point leaves in its two output buffers

From the block `xe` of the input batch, the four weight blocks, the four bias blocks and the two state blocks:
the real and the imaginary half of the new state on this tile, each written by ONE store of the whole buffer. -/

/-- The real half's buffer after the body. -/
def outRe (xe : Vec F S1024x2048 .bf16) (wP wT wR wI : Vec F S256x2048 .bf16) (bp bt br bi : Vec F S1x256 .f32)
    (hre him : Vec F S1024x256 .f32) : Vec F S1024x256 .f32 :=
  View.canon [⟨rH, k0_pay2 (k0_pay6 (View.ld xe rE) (View.ld wR rW) (View.ld br rB)) (k0_pay8 (View.ld xe rE) (View.ld wP rW) (View.ld bp rB))
    (k0_pay9 (View.ld xe rE) (View.ld wT rW) (View.ld bt rB)) (k0_pay10 (View.ld xe rE) (View.ld wT rW) (View.ld bt rB)) (View.ld hre rH) (View.ld him rH)⟩]

/-- The imaginary half's buffer after the body. -/
def outIm (xe : Vec F S1024x2048 .bf16) (wP wT wR wI : Vec F S256x2048 .bf16) (bp bt br bi : Vec F S1x256 .f32)
    (hre him : Vec F S1024x256 .f32) : Vec F S1024x256 .f32 :=
  View.canon [⟨rH, k0_pay3 (k0_pay7 (View.ld xe rE) (View.ld wI rW) (View.ld bi rB)) (k0_pay8 (View.ld xe rE) (View.ld wP rW) (View.ld bp rB))
    (k0_pay9 (View.ld xe rE) (View.ld wT rW) (View.ld bt rB)) (k0_pay10 (View.ld xe rE) (View.ld wT rW) (View.ld bt rB)) (View.ld hre rH) (View.ld him rH)⟩]

/-- One store of the whole rectangle covers the buffer. -/
theorem coverH (p0 : Vec F S1024x256 .f32) (y : S1024x256.Idx) :
    ∃ pc ∈ ([⟨rH, p0⟩] : List (View.Piece (Elt F) S1024x256 .f32)), y ∈ pc.1.set :=
  View.cover_of_tiled [⟨rH, p0⟩] S1024x256.size (by rfl) y

/-! ## The body's triple -/

set_option maxHeartbeats 4000000 in
/-- The body on whole staging buffers — the eleven inputs' at read contents, the two outputs' at anything — runs
    to the end with the inputs' as they were and the outputs' at `outRe` / `outIm` of the inputs'. -/
theorem sound_kernel (c : Dev nD) (E : Set ℕ) (i : grid0.Coords)
    (a2 : Memref sig .tc .vmem S1024x2048 .bf16) (h2 : a2.IsWhole)
    (a3 : Memref sig .tc .vmem S256x2048 .bf16) (h3 : a3.IsWhole) (a4 : Memref sig .tc .vmem S256x2048 .bf16) (h4 : a4.IsWhole)
    (a5 : Memref sig .tc .vmem S256x2048 .bf16) (h5 : a5.IsWhole) (a6 : Memref sig .tc .vmem S256x2048 .bf16) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (a11 : Memref sig .tc .vmem S1024x256 .f32) (h11 : a11.IsWhole) (a12 : Memref sig .tc .vmem S1024x256 .f32) (h12 : a12.IsWhole)
    (a13 : Memref sig .tc .vmem S1024x256 .f32) (h13 : a13.IsWhole) (a14 : Memref sig .tc .vmem S1024x256 .f32) (h14 : a14.IsWhole)
    (xe : Vec F S1024x2048 .bf16) (wP wT wR wI : Vec F S256x2048 .bf16) (bp bt br bi : Vec F S1x256 .f32)
    (hre him : Vec F S1024x256 .f32) (K : PUnit → sProp 𝕄) :
    iprop(owns (c : Thread nD τ) a2 fullShare xe
        ∗ owns (c : Thread nD τ) a3 fullShare wP ∗ owns (c : Thread nD τ) a4 fullShare wT
        ∗ owns (c : Thread nD τ) a5 fullShare wR ∗ owns (c : Thread nD τ) a6 fullShare wI
        ∗ owns (c : Thread nD τ) a7 fullShare bp ∗ owns (c : Thread nD τ) a8 fullShare bt
        ∗ owns (c : Thread nD τ) a9 fullShare br ∗ owns (c : Thread nD τ) a10 fullShare bi
        ∗ owns (c : Thread nD τ) a11 fullShare hre ∗ owns (c : Thread nD τ) a12 fullShare him
        ∗ (∃ d, owns (c : Thread nD τ) a13 fullShare d) ∗ (∃ d, owns (c : Thread nD τ) a14 fullShare d)
        ∗ (iprop(owns (c : Thread nD τ) a2 fullShare xe
            ∗ owns (c : Thread nD τ) a3 fullShare wP ∗ owns (c : Thread nD τ) a4 fullShare wT
            ∗ owns (c : Thread nD τ) a5 fullShare wR ∗ owns (c : Thread nD τ) a6 fullShare wI
            ∗ owns (c : Thread nD τ) a7 fullShare bp ∗ owns (c : Thread nD τ) a8 fullShare bt
            ∗ owns (c : Thread nD τ) a9 fullShare br ∗ owns (c : Thread nD τ) a10 fullShare bi
            ∗ owns (c : Thread nD τ) a11 fullShare hre ∗ owns (c : Thread nD τ) a12 fullShare him
            ∗ owns (c : Thread nD τ) a13 fullShare (outRe xe wP wT wR wI bp bt br bi hre him)
            ∗ owns (c : Thread nD τ) a14 fullShare (outIm xe wP wT wR wI bp bt br bi hre him)) -∗ K ⟨⟩))
      ⊢ wp frame (wpE (defs₀ (F := F)) Variants.none c none) E
          (cc0__kernel i a2 h2 a3 h3 a4 h4 a5 h5 a6 h6 a7 h7 a8 h8 a9 h9 a10 h10 a11 h11 a12 h12 a13 h13 a14 h14) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf2 hf3 hf4 hf5 hf6 hf7 hf8 hf9 hf10 hf11 hf12
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [H12]; · iexists f12; isplitr; · ipureintro; rfl
                   iexact H12
  isplitl [H13]
  · iexists _; isplitr
    swap; · iexact H13
    ipureintro
    exact View.read_writes_eq_canon _ _ _ (coverH _)
  · iexists _; isplitr
    swap; · iexact H14
    ipureintro
    exact View.read_writes_eq_canon _ _ _ (coverH _)

end Cert.Kernel.Hand

end
-- ==== Proof.KData.lean ====
/-
  The pipeline's proof data for the cell's kernel.

  The grid is 8 × 8: point (i, j) reads rows [1024 i, 1024 (i+1)) of the input batch, rows [256 j, 256 (j+1)) of each
  weight matrix, columns [256 j, 256 (j+1)) of each bias, and of the state array — whose real and imaginary halves sit
  side by side along the feature axis — the tile at column block j (real half) and at column block 8 + j (imaginary
  half): ONE array read through TWO windows. It writes the tile (i, j) of each of the two result arrays. Each input
  window's buffer holds its block at every point; each output's holds what the body computes from the blocks.
-/
import proofs.«176958_j13529146982869_1_alg».proof.Proof.Gen.Kernel.Launch
import proofs.«176958_j13529146982869_1_alg».proof.Proof.Gen.Kernel.Skeleton
import proofs.«176958_j13529146982869_1_alg».proof.Proof.Gen.Kernel.Points
import proofs.«176958_j13529146982869_1_alg».proof.Proof.KBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter here, instantiated by the run
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when the point
    does not fetch it the block index has not moved), for any proof data on these arrays whose body leaves it in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (when the point
    does not fetch it the block index has not moved), for any proof data on these arrays whose body leaves it in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (when the point
    does not fetch it the block index has not moved), for any proof data on these arrays whose body leaves it in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (when the point
    does not fetch it the block index has not moved), for any proof data on these arrays whose body leaves it in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (when the point
    does not fetch it the block index has not moved), for any proof data on these arrays whose body leaves it in place. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (when the point
    does not fetch it the block index has not moved), for any proof data on these arrays whose body leaves it in place. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (when the point
    does not fetch it the block index has not moved), for any proof data on these arrays whose body leaves it in place. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (when the point
    does not fetch it the block index has not moved), for any proof data on these arrays whose body leaves it in place. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (when the point
    does not fetch it the block index has not moved), for any proof data on these arrays whose body leaves it in place. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (when the point
    does not fetch it the block index has not moved), for any proof data on these arrays whose body leaves it in place. -/
theorem before9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not (when the point
    does not fetch it the block index has not moved), for any proof data on these arrays whose body leaves it in place. -/
theorem before10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share of its array each input window holds: the state array is read by two windows (its real half through
    window 9, its imaginary half through window 10), each at one half of the full share; every other array has one
    window, at the full share. -/
def shareOf : Fin cfg0.W → PosShare TreeShare
  | ⟨0, _⟩ => fullShare | ⟨1, _⟩ => fullShare | ⟨2, _⟩ => fullShare | ⟨3, _⟩ => fullShare | ⟨4, _⟩ => fullShare
  | ⟨5, _⟩ => fullShare | ⟨6, _⟩ => fullShare | ⟨7, _⟩ => fullShare | ⟨8, _⟩ => fullShare
  | ⟨9, _⟩ => fullShare.left | ⟨10, _⟩ => fullShare.right
  | ⟨11, _⟩ => fullShare | ⟨12, _⟩ => fullShare

/-- The proof data of the pipeline on core `c`: the arrays as the region finds them; after the body at point `t`
    each input's buffer at its block and the two outputs' at `outRe` / `outIm` of the input blocks; the invariant
    the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outRe (iblk V c 0 t) (iblk V c 1 t) (iblk V c 2 t) (iblk V c 3 t) (iblk V c 4 t) (iblk V c 5 t) (iblk V c 6 t) (iblk V c 7 t) (iblk V c 8 t) (iblk V c 9 t) (iblk V c 10 t)
    | ⟨12, _⟩ => outIm (iblk V c 0 t) (iblk V c 1 t) (iblk V c 2 t) (iblk V c 3 t) (iblk V c 4 t) (iblk V c 5 t) (iblk V c 6 t) (iblk V c 7 t) (iblk V c 8 t) (iblk V c 9 t) (iblk V c 10 t)
  Φ _ := Pipeline.ΦA spec0 c
  q := shareOf
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = iblk V c 6 t := by dsimp only [dat0]
theorem after7 (c : Dev nD) (t : Fin cfg0.N) : (dat0 V c).after 7 t = iblk V c 7 t := by dsimp only [dat0]
theorem after8 (c : Dev nD) (t : Fin cfg0.N) : (dat0 V c).after 8 t = iblk V c 8 t := by dsimp only [dat0]
theorem after9 (c : Dev nD) (t : Fin cfg0.N) : (dat0 V c).after 9 t = iblk V c 9 t := by dsimp only [dat0]
theorem after10 (c : Dev nD) (t : Fin cfg0.N) : (dat0 V c).after 10 t = iblk V c 10 t := by dsimp only [dat0]
theorem after11 (c : Dev nD) (t : Fin cfg0.N) : (dat0 V c).after 11 t = outRe (iblk V c 0 t) (iblk V c 1 t) (iblk V c 2 t) (iblk V c 3 t) (iblk V c 4 t) (iblk V c 5 t) (iblk V c 6 t) (iblk V c 7 t) (iblk V c 8 t) (iblk V c 9 t) (iblk V c 10 t) := by dsimp only [dat0]
theorem after12 (c : Dev nD) (t : Fin cfg0.N) : (dat0 V c).after 12 t = outIm (iblk V c 0 t) (iblk V c 1 t) (iblk V c 2 t) (iblk V c 3 t) (iblk V c 4 t) (iblk V c 5 t) (iblk V c 6 t) (iblk V c 7 t) (iblk V c 8 t) (iblk V c 9 t) (iblk V c 10 t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d
theorem before5 (c : Dev nD) (t : Fin cfg0.N) (d) : (dat0 V c).before 5 t d = iblk V c 5 t :=
  before5_of V (dat0 V c) (A_eq V c 5) (after5 V c) t d
theorem before6 (c : Dev nD) (t : Fin cfg0.N) (d) : (dat0 V c).before 6 t d = iblk V c 6 t :=
  before6_of V (dat0 V c) (A_eq V c 6) (after6 V c) t d
theorem before7 (c : Dev nD) (t : Fin cfg0.N) (d) : (dat0 V c).before 7 t d = iblk V c 7 t :=
  before7_of V (dat0 V c) (A_eq V c 7) (after7 V c) t d
theorem before8 (c : Dev nD) (t : Fin cfg0.N) (d) : (dat0 V c).before 8 t d = iblk V c 8 t :=
  before8_of V (dat0 V c) (A_eq V c 8) (after8 V c) t d
theorem before9 (c : Dev nD) (t : Fin cfg0.N) (d) : (dat0 V c).before 9 t d = iblk V c 9 t :=
  before9_of V (dat0 V c) (A_eq V c 9) (after9 V c) t d
theorem before10 (c : Dev nD) (t : Fin cfg0.N) (d) : (dat0 V c).before 10 t d = iblk V c 10 t :=
  before10_of V (dat0 V c) (A_eq V c 10) (after10 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8, before9, before10]
  rw [show (dat0 V c).Φ t.succ = (dat0 V c).Φ t.castSucc from rfl,
    show (dat0 V c).owesAt () t.succ = (dat0 V c).owesAt () t.castSucc from rfl,
    after0, after1, after2, after3, after4, after5, after6, after7, after8, after9, after10, after11, after12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline library's body obligation, at every point. -/
theorem body_obligation (c : Dev nD) : BodyObligation (dat0 (F := F) V c) (defs₀ (F := F)) Variants.none () Set.univ := fun t => by
  rw [bigSep_W0, bigSep_W0]
  exact sound_body V c t

end Cert.Kernel.Hand

end
-- ==== Proof.KShare.lean ====
/-
  One array behind two windows.

  The state array holds the real half of the state in its first 2048 columns and the imaginary half in the last 2048;
  the kernel reads both halves of the SAME array, through two input windows at different column blocks. The pipeline
  holds each input window's array at a share of its own, so at the region's entry the array's full share is dealt as
  its two halves, one to each window, and at the exit — both windows still holding the contents they were handed —
  the halves are joined again. Every other array stands behind exactly one window at the full share.
-/
import proofs.«176958_j13529146982869_1_alg».proof.Proof.Gen.Kernel.Launch
import proofs.«176958_j13529146982869_1_alg».proof.Proof.Gen.Kernel.Skeleton
import proofs.«176958_j13529146982869_1_alg».proof.Proof.Gen.Kernel.Points
import proofs.«176958_j13529146982869_1_alg».proof.Proof.KData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The thirteen windows stand on twelve buffers -/

/-- The distinct buffers behind the windows' arrays: the nine operands the host prepares, the state array (behind
    windows 9 AND 10), and the two result arrays. -/
abbrev arrList : List (Ref sig .tc) :=
  [main_v0, main_v1, main_v2, main_v3, main_v4, main_v5, main_v6, main_v7, main_v8, main_arg1, main_v9_0, main_v9_1]

/-- The buffers behind the arrays, each whole at the full share, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1) ∗ (((c : Thread nD τ).loc main_v2) ↦{fullShare} V' main_v2) ∗ (((c : Thread nD τ).loc main_v3) ↦{fullShare} V' main_v3) ∗ (((c : Thread nD τ).loc main_v4) ↦{fullShare} V' main_v4) ∗ (((c : Thread nD τ).loc main_v5) ↦{fullShare} V' main_v5) ∗ (((c : Thread nD τ).loc main_v6) ↦{fullShare} V' main_v6) ∗ (((c : Thread nD τ).loc main_v7) ↦{fullShare} V' main_v7) ∗ (((c : Thread nD τ).loc main_v8) ↦{fullShare} V' main_v8) ∗ (((c : Thread nD τ).loc main_arg1) ↦{fullShare} V' main_arg1) ∗ (((c : Thread nD τ).loc main_v9_0) ↦{fullShare} V' main_v9_0) ∗ (((c : Thread nD τ).loc main_v9_1) ↦{fullShare} V' main_v9_1)) := by
  unfold Pipeline.arrBufs
  exact bigSep_eq_bigSepL_of_eq arrList (by decide) (by decide) _

/-- Each window's share of its array, by name. -/
theorem share_eq (c : Dev nD) : ∀ w : Fin cfg0.W, (dat0 V c).share w = shareOf w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl

/-- The windows' arrays, every one a whole buffer, each at its window's share. -/
theorem arrays_eq' (c : Dev nD) (G : (w : Fin cfg0.W) → Buf (Elt F) ((cfg0.win w).arr.view.loc (c : Thread nD τ))) :
    (dat0 V c).arrays G = bigSep Finset.univ fun w : Fin cfg0.W =>
      (((c : Thread nD τ).loc (Pipeline.arrRef spec0 w)) ↦{shareOf w} G w : sProp 𝕄) := by
  unfold Dat.arrays
  exact bigSep_congr fun w _ => by rw [(arr_whole0 w).set_eq_univ, share_eq]

/-- ENTRY: the twelve buffers, whole at the full share at contents `V'`, are the thirteen windows' arrays at those
    contents — the state array's full share dealt as one half to each of its two windows. -/
theorem arrays_of_arrBufs (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (Pipeline.arrBufs (Ix := Unit) (Name := ℕ) (U := UR sig nD τ) (Lvl := ℕ) spec0 c V' : sProp 𝕄) ⊢ (dat0 V c).arrays G := by
  rw [arrays_eq', arrBufs_eq,
    show (fun w : Fin cfg0.W => (((c : Thread nD τ).loc (Pipeline.arrRef spec0 w)) ↦{shareOf w} G w : sProp 𝕄))
      = fun w => (((c : Thread nD τ).loc (Pipeline.arrRef spec0 w)) ↦{shareOf w} V' (Pipeline.arrRef spec0 w) : sProp 𝕄) from
      funext fun w => by rw [hG],
    bigSep_W0]
  iintro ⟨H0, H1, H2, H3, H4, H5, H6, H7, H8, Hh, H11, H12⟩
  ihave Hh' := (pointsTo_share (PosShare.mem_left_op_right fullShare)).1 $$ Hh
  icases Hh' with ⟨H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- EXIT: the thirteen windows' arrays at contents read off `V'` are the twelve buffers whole at the full share at
    `V'` — the two halves of the state array's share, at the same contents, joined. -/
theorem arrBufs_of_arrays (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (dat0 V c).arrays G ⊢ (Pipeline.arrBufs (Ix := Unit) (Name := ℕ) (U := UR sig nD τ) (Lvl := ℕ) spec0 c V' : sProp 𝕄) := by
  rw [arrays_eq', arrBufs_eq,
    show (fun w : Fin cfg0.W => (((c : Thread nD τ).loc (Pipeline.arrRef spec0 w)) ↦{shareOf w} G w : sProp 𝕄))
      = fun w => (((c : Thread nD τ).loc (Pipeline.arrRef spec0 w)) ↦{shareOf w} V' (Pipeline.arrRef spec0 w) : sProp 𝕄) from
      funext fun w => by rw [hG],
    bigSep_W0]
  iintro ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9 H10]
  · iapply (pointsTo_share (PosShare.mem_left_op_right fullShare)).2
    isplitl [H9]; · iexact H9
    iexact H10
  isplitl [H11]; · iexact H11
  iexact H12

end Cert.Kernel.Hand

end
-- ==== Proof.KRun.lean ====
/-
  The run of the cell's program: host operations, the kernel region, a host operation.

  @main rounds the input batch and the four weight matrices to the matrix unit's operand format and reshapes the four
  biases to rows; runs the kernel over its 8 × 8 grid; and joins the two result arrays along the feature axis. Between
  these items the core holds every one of its unscoped buffers whole, at contents computed item by item: the launch
  memory, then the host operations' results, then the region's exit contents (the two result arrays at what the
  write-backs leave, everything else as entered), then the join. The region's entry deals the twelve buffers behind
  its thirteen windows to the windows and its exit takes them back.
-/
import proofs.«176958_j13529146982869_1_alg».proof.Proof.Gen.Kernel.Launch
import proofs.«176958_j13529146982869_1_alg».proof.Proof.Gen.Kernel.Skeleton
import proofs.«176958_j13529146982869_1_alg».proof.Proof.Gen.Kernel.Points
import proofs.«176958_j13529146982869_1_alg».proof.Proof.KShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- Core `c`'s buffers at launch. -/
abbrev W0 : Dev nD → Valuation τ sig (Elt F) := fun c b => (s₀ m ρ).mem ((c : Dev nD), b)
/-- After the host operations before the region: the operands rounded and reshaped. -/
abbrev W1 : Dev nD → Valuation τ sig (Elt F) := fun c => StableHlo.after hostOps0 (W0 m ρ c)
/-- The same read at the core's references (what the region's proof data take). -/
abbrev V1 : (c : Dev nD) → (b : Ref sig .tc) → Buf (Elt F) ((c : Thread nD τ).loc b) := fun c b => W1 m ρ c b

/-- At the region's exit: the two result arrays at what the write-backs leave, every other buffer as entered (the
    inputs are only read). -/
def W2 (c : Dev nD) : Valuation τ sig (Elt F) :=
  Function.update (Function.update (W1 m ρ c) (Proc.devRef .tc main_v9_0) ((dat0 (V1 m ρ) c).arrAt 11 cfg0.N))
    (Proc.devRef .tc main_v9_1) ((dat0 (V1 m ρ) c).arrAt 12 cfg0.N)

theorem W2_re (c : Dev nD) : W2 m ρ c (Proc.devRef .tc main_v9_0) = (dat0 (V1 m ρ) c).arrAt 11 cfg0.N := by
  unfold W2
  rw [Function.update_of_ne (StableHlo.devRef_ne_of_ne (by decide)), Function.update_self]
theorem W2_im (c : Dev nD) : W2 m ρ c (Proc.devRef .tc main_v9_1) = (dat0 (V1 m ρ) c).arrAt 12 cfg0.N := by
  unfold W2; rw [Function.update_self]
theorem W2_of_ne (c : Dev nD) (b : Ref sig .tc) (h0 : b ≠ main_v9_0) (h1 : b ≠ main_v9_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-- The same read at the core's references (the region's exit contents). -/
abbrev V2 : (c : Dev nD) → (b : Ref sig .tc) → Buf (Elt F) ((c : Thread nD τ).loc b) := fun c b => W2 m ρ c b

/-- At the exit every window's array holds what the pipeline leaves: an input's what it held at entry, an output's
    its write-backs folded. -/
theorem hF (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq (V1 m ρ) c 0)).trans (W2_of_ne m ρ c main_v0 (by decide) (by decide)).symm
  | ⟨1, _⟩ => (((dat0 (V1 m ρ) c).arrAt_in 1 rfl _).trans (A_eq (V1 m ρ) c 1)).trans (W2_of_ne m ρ c main_v1 (by decide) (by decide)).symm
  | ⟨2, _⟩ => (((dat0 (V1 m ρ) c).arrAt_in 2 rfl _).trans (A_eq (V1 m ρ) c 2)).trans (W2_of_ne m ρ c main_v2 (by decide) (by decide)).symm
  | ⟨3, _⟩ => (((dat0 (V1 m ρ) c).arrAt_in 3 rfl _).trans (A_eq (V1 m ρ) c 3)).trans (W2_of_ne m ρ c main_v3 (by decide) (by decide)).symm
  | ⟨4, _⟩ => (((dat0 (V1 m ρ) c).arrAt_in 4 rfl _).trans (A_eq (V1 m ρ) c 4)).trans (W2_of_ne m ρ c main_v4 (by decide) (by decide)).symm
  | ⟨5, _⟩ => (((dat0 (V1 m ρ) c).arrAt_in 5 rfl _).trans (A_eq (V1 m ρ) c 5)).trans (W2_of_ne m ρ c main_v5 (by decide) (by decide)).symm
  | ⟨6, _⟩ => (((dat0 (V1 m ρ) c).arrAt_in 6 rfl _).trans (A_eq (V1 m ρ) c 6)).trans (W2_of_ne m ρ c main_v6 (by decide) (by decide)).symm
  | ⟨7, _⟩ => (((dat0 (V1 m ρ) c).arrAt_in 7 rfl _).trans (A_eq (V1 m ρ) c 7)).trans (W2_of_ne m ρ c main_v7 (by decide) (by decide)).symm
  | ⟨8, _⟩ => (((dat0 (V1 m ρ) c).arrAt_in 8 rfl _).trans (A_eq (V1 m ρ) c 8)).trans (W2_of_ne m ρ c main_v8 (by decide) (by decide)).symm
  | ⟨9, _⟩ => (((dat0 (V1 m ρ) c).arrAt_in 9 rfl _).trans (A_eq (V1 m ρ) c 9)).trans (W2_of_ne m ρ c main_arg1 (by decide) (by decide)).symm
  | ⟨10, _⟩ => (((dat0 (V1 m ρ) c).arrAt_in 10 rfl _).trans (A_eq (V1 m ρ) c 10)).trans (W2_of_ne m ρ c main_arg1 (by decide) (by decide)).symm
  | ⟨11, _⟩ => (W2_re m ρ c).symm
  | ⟨12, _⟩ => (W2_im m ρ c).symm
/-- and every buffer behind no window what it held at entry. -/
theorem hrest (c : Dev nD) : ∀ b, b ∉ Finset.univ.image (Pipeline.arrRef spec0) → V2 m ρ c b = V1 m ρ c b :=
  fun b hb => W2_of_ne m ρ c b
    (fun e => hb (Finset.mem_image.mpr ⟨11, Finset.mem_univ _, e.symm⟩))
    (fun e => hb (Finset.mem_image.mpr ⟨12, Finset.mem_univ _, e.symm⟩))

/-- After the host operation behind the region: the two result arrays joined along the feature axis. -/
abbrev W3 : Dev nD → Valuation τ sig (Elt F) := fun c => StableHlo.after hostOps1 (W2 m ρ c)

/-! ## The proof data family and the thread state -/

/-- No pallas_call has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core's dues, none. -/
abbrev R (c : Dev nD) : sProp 𝕄 := iprop((∃ r, prngReg c r) ∗ ∃ W, owes (c : Thread nD τ) (0 : CellTallies nD τ sig Unit) W)
/-- A stretch of host operations as an item: over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The region as an item -/

set_option backward.isDefEq.respectTransparency.types false in
/-- The region over the thread state: entered from every unscoped buffer at `W1`, left at `W2`. At entry the twelve
    buffers behind the windows are split out of the unscoped buffers and dealt to the thirteen windows (the state
    array's share halved between its two windows); at exit they are joined and put back. The generator register goes
    into the body's invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V1 m ρ c)) := by
      rw [Pipeline.unscopedBufs_split₀ cfgs 0 winFacts₀0.arr_unscoped c (V1 m ρ c)]
      exact sep_mono (arrays_of_arrBufs (V1 m ρ) c (V1 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c)]
      refine sep_mono (arrBufs_of_arrays (V1 m ρ) c (V2 m ρ c) _ (hF m ρ c)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's three items in order: the host operations before the region, the region, the host operation after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main is the run of the items. -/
theorem main_run (c : Dev nD) : main (F := F) c = Pipeline.Seg.run (segs m ρ) := (main_chain c).trans (by chain_rfl)

set_option backward.isDefEq.respectTransparency.types false in
/-- THE RUN: from any memory with zero counters, every weakly fair execution of @main on the cores terminates, nothing
    faulting, and every final state holds every unscoped buffer at the last contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.Kernel.Hand

end
-- ==== Proof.KFrame.lean ====
/-
  The arguments of the cell's program end as launched: the frame.

  The run ends with every unscoped buffer at the last contents; an argument's buffer is written by no host operation
  and by no write-back of the region (the region only reads its inputs), so its last contents are the launch memory's.
-/
import proofs.«176958_j13529146982869_1_alg».proof.Proof.Gen.Kernel.Launch
import proofs.«176958_j13529146982869_1_alg».proof.Proof.Gen.Kernel.Skeleton
import proofs.«176958_j13529146982869_1_alg».proof.Proof.Gen.Kernel.Points
import proofs.«176958_j13529146982869_1_alg».proof.Proof.KRun
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument

The host operations before the region write the nine operands they prepare, the region its two result arrays, the host
operation after it the joined result; so at an argument's buffer the last contents walk back to the launch memory. -/

theorem W3_main_arg0 (c : Dev nD) : W3 m ρ c (Proc.devRef .tc main_arg0) = m ((c : Thread nD τ).loc main_arg0) := by
  show StableHlo.after hostOps1 (W2 m ρ c) (Proc.devRef .tc main_arg0) = _
  dsimp only [hostOps1]
  after_results
  rw [W2_of_ne m ρ c main_arg0 (by decide) (by decide)]
  show StableHlo.after hostOps0 (W0 m ρ c) (Proc.devRef .tc main_arg0) = _
  dsimp only [hostOps0]
  after_results
theorem W3_main_arg1 (c : Dev nD) : W3 m ρ c (Proc.devRef .tc main_arg1) = m ((c : Thread nD τ).loc main_arg1) := by
  show StableHlo.after hostOps1 (W2 m ρ c) (Proc.devRef .tc main_arg1) = _
  dsimp only [hostOps1]
  after_results
  rw [W2_of_ne m ρ c main_arg1 (by decide) (by decide)]
  show StableHlo.after hostOps0 (W0 m ρ c) (Proc.devRef .tc main_arg1) = _
  dsimp only [hostOps0]
  after_results
theorem W3_main_arg2 (c : Dev nD) : W3 m ρ c (Proc.devRef .tc main_arg2) = m ((c : Thread nD τ).loc main_arg2) := by
  show StableHlo.after hostOps1 (W2 m ρ c) (Proc.devRef .tc main_arg2) = _
  dsimp only [hostOps1]
  after_results
  rw [W2_of_ne m ρ c main_arg2 (by decide) (by decide)]
  show StableHlo.after hostOps0 (W0 m ρ c) (Proc.devRef .tc main_arg2) = _
  dsimp only [hostOps0]
  after_results
theorem W3_main_arg3 (c : Dev nD) : W3 m ρ c (Proc.devRef .tc main_arg3) = m ((c : Thread nD τ).loc main_arg3) := by
  show StableHlo.after hostOps1 (W2 m ρ c) (Proc.devRef .tc main_arg3) = _
  dsimp only [hostOps1]
  after_results
  rw [W2_of_ne m ρ c main_arg3 (by decide) (by decide)]
  show StableHlo.after hostOps0 (W0 m ρ c) (Proc.devRef .tc main_arg3) = _
  dsimp only [hostOps0]
  after_results
theorem W3_main_arg4 (c : Dev nD) : W3 m ρ c (Proc.devRef .tc main_arg4) = m ((c : Thread nD τ).loc main_arg4) := by
  show StableHlo.after hostOps1 (W2 m ρ c) (Proc.devRef .tc main_arg4) = _
  dsimp only [hostOps1]
  after_results
  rw [W2_of_ne m ρ c main_arg4 (by decide) (by decide)]
  show StableHlo.after hostOps0 (W0 m ρ c) (Proc.devRef .tc main_arg4) = _
  dsimp only [hostOps0]
  after_results
theorem W3_main_arg5 (c : Dev nD) : W3 m ρ c (Proc.devRef .tc main_arg5) = m ((c : Thread nD τ).loc main_arg5) := by
  show StableHlo.after hostOps1 (W2 m ρ c) (Proc.devRef .tc main_arg5) = _
  dsimp only [hostOps1]
  after_results
  rw [W2_of_ne m ρ c main_arg5 (by decide) (by decide)]
  show StableHlo.after hostOps0 (W0 m ρ c) (Proc.devRef .tc main_arg5) = _
  dsimp only [hostOps0]
  after_results
theorem W3_main_arg6 (c : Dev nD) : W3 m ρ c (Proc.devRef .tc main_arg6) = m ((c : Thread nD τ).loc main_arg6) := by
  show StableHlo.after hostOps1 (W2 m ρ c) (Proc.devRef .tc main_arg6) = _
  dsimp only [hostOps1]
  after_results
  rw [W2_of_ne m ρ c main_arg6 (by decide) (by decide)]
  show StableHlo.after hostOps0 (W0 m ρ c) (Proc.devRef .tc main_arg6) = _
  dsimp only [hostOps0]
  after_results
theorem W3_main_arg7 (c : Dev nD) : W3 m ρ c (Proc.devRef .tc main_arg7) = m ((c : Thread nD τ).loc main_arg7) := by
  show StableHlo.after hostOps1 (W2 m ρ c) (Proc.devRef .tc main_arg7) = _
  dsimp only [hostOps1]
  after_results
  rw [W2_of_ne m ρ c main_arg7 (by decide) (by decide)]
  show StableHlo.after hostOps0 (W0 m ρ c) (Proc.devRef .tc main_arg7) = _
  dsimp only [hostOps0]
  after_results
theorem W3_main_arg8 (c : Dev nD) : W3 m ρ c (Proc.devRef .tc main_arg8) = m ((c : Thread nD τ).loc main_arg8) := by
  show StableHlo.after hostOps1 (W2 m ρ c) (Proc.devRef .tc main_arg8) = _
  dsimp only [hostOps1]
  after_results
  rw [W2_of_ne m ρ c main_arg8 (by decide) (by decide)]
  show StableHlo.after hostOps0 (W0 m ρ c) (Proc.devRef .tc main_arg8) = _
  dsimp only [hostOps0]
  after_results
theorem W3_main_arg9 (c : Dev nD) : W3 m ρ c (Proc.devRef .tc main_arg9) = m ((c : Thread nD τ).loc main_arg9) := by
  show StableHlo.after hostOps1 (W2 m ρ c) (Proc.devRef .tc main_arg9) = _
  dsimp only [hostOps1]
  after_results
  rw [W2_of_ne m ρ c main_arg9 (by decide) (by decide)]
  show StableHlo.after hostOps0 (W0 m ρ c) (Proc.devRef .tc main_arg9) = _
  dsimp only [hostOps0]
  after_results

/-- THE FRAME: from any memory with zero counters, every weakly fair execution of @main terminates, nothing faulting,
    and every final state holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run m ρ)

end Cert.Kernel.Hand

end
-- ==== Proof.KIBody.lean ====
/-
  One grid point of the cell's kernel, on whole staging buffers.

  The body reads a [1024, 2048] block of the input batch, four [256, 2048] blocks of the weight matrices (rows of
  each matrix: one tile of output features), four [1, 256] bias blocks and the two [1024, 256] blocks of the state's
  real and imaginary halves on this tile; it forms the four projections, the gate, cosine and sine, rotates the
  state and mixes it with the projected input, and stores the two [1024, 256] result blocks, each by one store of the
  whole buffer. This module states what the two output buffers hold afterwards as pure terms of the eleven input
  blocks (`outRe`, `outIm`) and proves the body's triple for any float instance.
-/
import proofs.«176958_j13529146982869_1_alg».proof.Proof.Gen.KernelIdeal.Launch
import proofs.«176958_j13529146982869_1_alg».proof.Proof.Gen.KernelIdeal.Skeleton
import proofs.«176958_j13529146982869_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is the whole staging buffer -/

abbrev rE : Rect S1024x2048 := Rect.unit (s := S1024x2048) ![0, 0] S1024x2048.size inb_S1024x2048_S1024x2048_0_0
abbrev rW : Rect S256x2048 := Rect.unit (s := S256x2048) ![0, 0] S256x2048.size inb_S256x2048_S256x2048_0_0
abbrev rB : Rect S1x256 := Rect.unit (s := S1x256) ![0, 0] S1x256.size inb_S1x256_S1x256_0_0
abbrev rH : Rect S1024x256 := Rect.unit (s := S1024x256) ![0, 0] S1024x256.size inb_S1024x256_S1024x256_0_0

/-! ## What one grid point leaves in its two output buffers

From the block `xe` of the input batch, the four weight blocks, the four bias blocks and the two state blocks:
the real and the imaginary half of the new state on this tile, each written by ONE store of the whole buffer. -/

/-- The real half's buffer after the body. -/
def outRe (xe : Vec F S1024x2048 .bf16) (wP wT wR wI : Vec F S256x2048 .bf16) (bp bt br bi : Vec F S1x256 .f32)
    (hre him : Vec F S1024x256 .f32) : Vec F S1024x256 .f32 :=
  View.canon [⟨rH, k0_pay2 (k0_pay6 (View.ld xe rE) (View.ld wR rW) (View.ld br rB)) (k0_pay8 (View.ld xe rE) (View.ld wP rW) (View.ld bp rB))
    (k0_pay9 (View.ld xe rE) (View.ld wT rW) (View.ld bt rB)) (k0_pay10 (View.ld xe rE) (View.ld wT rW) (View.ld bt rB)) (View.ld hre rH) (View.ld him rH)⟩]

/-- The imaginary half's buffer after the body. -/
def outIm (xe : Vec F S1024x2048 .bf16) (wP wT wR wI : Vec F S256x2048 .bf16) (bp bt br bi : Vec F S1x256 .f32)
    (hre him : Vec F S1024x256 .f32) : Vec F S1024x256 .f32 :=
  View.canon [⟨rH, k0_pay3 (k0_pay7 (View.ld xe rE) (View.ld wI rW) (View.ld bi rB)) (k0_pay8 (View.ld xe rE) (View.ld wP rW) (View.ld bp rB))
    (k0_pay9 (View.ld xe rE) (View.ld wT rW) (View.ld bt rB)) (k0_pay10 (View.ld xe rE) (View.ld wT rW) (View.ld bt rB)) (View.ld hre rH) (View.ld him rH)⟩]

/-- One store of the whole rectangle covers the buffer. -/
theorem coverH (p0 : Vec F S1024x256 .f32) (y : S1024x256.Idx) :
    ∃ pc ∈ ([⟨rH, p0⟩] : List (View.Piece (Elt F) S1024x256 .f32)), y ∈ pc.1.set :=
  View.cover_of_tiled [⟨rH, p0⟩] S1024x256.size (by rfl) y

/-! ## The body's triple -/

set_option maxHeartbeats 4000000 in
/-- The body on whole staging buffers — the eleven inputs' at read contents, the two outputs' at anything — runs
    to the end with the inputs' as they were and the outputs' at `outRe` / `outIm` of the inputs'. -/
theorem sound_kernel (c : Dev nD) (E : Set ℕ) (i : grid0.Coords)
    (a2 : Memref sig .tc .vmem S1024x2048 .bf16) (h2 : a2.IsWhole)
    (a3 : Memref sig .tc .vmem S256x2048 .bf16) (h3 : a3.IsWhole) (a4 : Memref sig .tc .vmem S256x2048 .bf16) (h4 : a4.IsWhole)
    (a5 : Memref sig .tc .vmem S256x2048 .bf16) (h5 : a5.IsWhole) (a6 : Memref sig .tc .vmem S256x2048 .bf16) (h6 : a6.IsWhole)
    (a7 : Memref sig .tc .vmem S1x256 .f32) (h7 : a7.IsWhole) (a8 : Memref sig .tc .vmem S1x256 .f32) (h8 : a8.IsWhole)
    (a9 : Memref sig .tc .vmem S1x256 .f32) (h9 : a9.IsWhole) (a10 : Memref sig .tc .vmem S1x256 .f32) (h10 : a10.IsWhole)
    (a11 : Memref sig .tc .vmem S1024x256 .f32) (h11 : a11.IsWhole) (a12 : Memref sig .tc .vmem S1024x256 .f32) (h12 : a12.IsWhole)
    (a13 : Memref sig .tc .vmem S1024x256 .f32) (h13 : a13.IsWhole) (a14 : Memref sig .tc .vmem S1024x256 .f32) (h14 : a14.IsWhole)
    (xe : Vec F S1024x2048 .bf16) (wP wT wR wI : Vec F S256x2048 .bf16) (bp bt br bi : Vec F S1x256 .f32)
    (hre him : Vec F S1024x256 .f32) (K : PUnit → sProp 𝕄) :
    iprop(owns (c : Thread nD τ) a2 fullShare xe
        ∗ owns (c : Thread nD τ) a3 fullShare wP ∗ owns (c : Thread nD τ) a4 fullShare wT
        ∗ owns (c : Thread nD τ) a5 fullShare wR ∗ owns (c : Thread nD τ) a6 fullShare wI
        ∗ owns (c : Thread nD τ) a7 fullShare bp ∗ owns (c : Thread nD τ) a8 fullShare bt
        ∗ owns (c : Thread nD τ) a9 fullShare br ∗ owns (c : Thread nD τ) a10 fullShare bi
        ∗ owns (c : Thread nD τ) a11 fullShare hre ∗ owns (c : Thread nD τ) a12 fullShare him
        ∗ (∃ d, owns (c : Thread nD τ) a13 fullShare d) ∗ (∃ d, owns (c : Thread nD τ) a14 fullShare d)
        ∗ (iprop(owns (c : Thread nD τ) a2 fullShare xe
            ∗ owns (c : Thread nD τ) a3 fullShare wP ∗ owns (c : Thread nD τ) a4 fullShare wT
            ∗ owns (c : Thread nD τ) a5 fullShare wR ∗ owns (c : Thread nD τ) a6 fullShare wI
            ∗ owns (c : Thread nD τ) a7 fullShare bp ∗ owns (c : Thread nD τ) a8 fullShare bt
            ∗ owns (c : Thread nD τ) a9 fullShare br ∗ owns (c : Thread nD τ) a10 fullShare bi
            ∗ owns (c : Thread nD τ) a11 fullShare hre ∗ owns (c : Thread nD τ) a12 fullShare him
            ∗ owns (c : Thread nD τ) a13 fullShare (outRe xe wP wT wR wI bp bt br bi hre him)
            ∗ owns (c : Thread nD τ) a14 fullShare (outIm xe wP wT wR wI bp bt br bi hre him)) -∗ K ⟨⟩))
      ⊢ wp frame (wpE (defs₀ (F := F)) Variants.none c none) E
          (cc0__kernel i a2 h2 a3 h3 a4 h4 a5 h5 a6 h6 a7 h7 a8 h8 a9 h9 a10 h10 a11 h11 a12 h12 a13 h13 a14 h14) K := by
  simp only [cc0__kernel_eq_skeleton]; unfold cc0__kernel_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%f9, %hf9, H9⟩, ⟨%f10, %hf10, H10⟩, ⟨%f11, %hf11, H11⟩, ⟨%f12, %hf12, H12⟩, ⟨%d13, %f13, -, H13⟩, ⟨%d14, %f14, -, H14⟩, Hk⟩
  subst hf2 hf3 hf4 hf5 hf6 hf7 hf8 hf9 hf10 hf11 hf12
  sl_exec
  sl_step
  iapply Hk
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]; · iexists f8; isplitr; · ipureintro; rfl
                  iexact H8
  isplitl [H9]; · iexists f9; isplitr; · ipureintro; rfl
                  iexact H9
  isplitl [H10]; · iexists f10; isplitr; · ipureintro; rfl
                   iexact H10
  isplitl [H11]; · iexists f11; isplitr; · ipureintro; rfl
                   iexact H11
  isplitl [H12]; · iexists f12; isplitr; · ipureintro; rfl
                   iexact H12
  isplitl [H13]
  · iexists _; isplitr
    swap; · iexact H13
    ipureintro
    exact View.read_writes_eq_canon _ _ _ (coverH _)
  · iexists _; isplitr
    swap; · iexact H14
    ipureintro
    exact View.read_writes_eq_canon _ _ _ (coverH _)

end Cert.KernelIdeal.Hand

end
-- ==== Proof.KIData.lean ====
/-
  The pipeline's proof data for the cell's kernel.

  The grid is 8 × 8: point (i, j) reads rows [1024 i, 1024 (i+1)) of the input batch, rows [256 j, 256 (j+1)) of each
  weight matrix, columns [256 j, 256 (j+1)) of each bias, and of the state array — whose real and imaginary halves sit
  side by side along the feature axis — the tile at column block j (real half) and at column block 8 + j (imaginary
  half): ONE array read through TWO windows. It writes the tile (i, j) of each of the two result arrays. Each input
  window's buffer holds its block at every point; each output's holds what the body computes from the blocks.
-/
import proofs.«176958_j13529146982869_1_alg».proof.Proof.Gen.KernelIdeal.Launch
import proofs.«176958_j13529146982869_1_alg».proof.Proof.Gen.KernelIdeal.Skeleton
import proofs.«176958_j13529146982869_1_alg».proof.Proof.Gen.KernelIdeal.Points
import proofs.«176958_j13529146982869_1_alg».proof.Proof.KIBody
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: a parameter here, instantiated by the run
variable (V : (c : Dev nD) → (b : Ref sig .tc) → Buf (Elt F) ((c : Thread nD τ).loc b))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (when the point
    does not fetch it the block index has not moved), for any proof data on these arrays whose body leaves it in place. -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not (when the point
    does not fetch it the block index has not moved), for any proof data on these arrays whose body leaves it in place. -/
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not (when the point
    does not fetch it the block index has not moved), for any proof data on these arrays whose body leaves it in place. -/
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not (when the point
    does not fetch it the block index has not moved), for any proof data on these arrays whose body leaves it in place. -/
theorem before3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not (when the point
    does not fetch it the block index has not moved), for any proof data on these arrays whose body leaves it in place. -/
theorem before4_of {c : Dev nD} (dat : Dat τ (Elt F) Unit ℕ (UR sig nD τ) ℕ cfg0 c) (hA : dat.A 4 = V c (Pipeline.arrRef spec0 4))
    (hafter : ∀ t, dat.after 4 t = iblk V c 4 t) (t : Fin cfg0.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not (when the point
    does not fetch it the block index has not moved), for any proof data on these arrays whose body leaves it in place. -/
theorem before5_of {c : Dev nD} (dat : Dat τ (Elt F) Unit ℕ (UR sig nD τ) ℕ cfg0 c) (hA : dat.A 5 = V c (Pipeline.arrRef spec0 5))
    (hafter : ∀ t, dat.after 5 t = iblk V c 5 t) (t : Fin cfg0.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not (when the point
    does not fetch it the block index has not moved), for any proof data on these arrays whose body leaves it in place. -/
theorem before6_of {c : Dev nD} (dat : Dat τ (Elt F) Unit ℕ (UR sig nD τ) ℕ cfg0 c) (hA : dat.A 6 = V c (Pipeline.arrRef spec0 6))
    (hafter : ∀ t, dat.after 6 t = iblk V c 6 t) (t : Fin cfg0.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not (when the point
    does not fetch it the block index has not moved), for any proof data on these arrays whose body leaves it in place. -/
theorem before7_of {c : Dev nD} (dat : Dat τ (Elt F) Unit ℕ (UR sig nD τ) ℕ cfg0 c) (hA : dat.A 7 = V c (Pipeline.arrRef spec0 7))
    (hafter : ∀ t, dat.after 7 t = iblk V c 7 t) (t : Fin cfg0.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not (when the point
    does not fetch it the block index has not moved), for any proof data on these arrays whose body leaves it in place. -/
theorem before8_of {c : Dev nD} (dat : Dat τ (Elt F) Unit ℕ (UR sig nD τ) ℕ cfg0 c) (hA : dat.A 8 = V c (Pipeline.arrRef spec0 8))
    (hafter : ∀ t, dat.after 8 t = iblk V c 8 t) (t : Fin cfg0.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not (when the point
    does not fetch it the block index has not moved), for any proof data on these arrays whose body leaves it in place. -/
theorem before9_of {c : Dev nD} (dat : Dat τ (Elt F) Unit ℕ (UR sig nD τ) ℕ cfg0 c) (hA : dat.A 9 = V c (Pipeline.arrRef spec0 9))
    (hafter : ∀ t, dat.after 9 t = iblk V c 9 t) (t : Fin cfg0.N) (d) : dat.before 9 t d = iblk V c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not (when the point
    does not fetch it the block index has not moved), for any proof data on these arrays whose body leaves it in place. -/
theorem before10_of {c : Dev nD} (dat : Dat τ (Elt F) Unit ℕ (UR sig nD τ) ℕ cfg0 c) (hA : dat.A 10 = V c (Pipeline.arrRef spec0 10))
    (hafter : ∀ t, dat.after 10 t = iblk V c 10 t) (t : Fin cfg0.N) (d) : dat.before 10 t d = iblk V c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The share of its array each input window holds: the state array is read by two windows (its real half through
    window 9, its imaginary half through window 10), each at one half of the full share; every other array has one
    window, at the full share. -/
def shareOf : Fin cfg0.W → PosShare TreeShare
  | ⟨0, _⟩ => fullShare | ⟨1, _⟩ => fullShare | ⟨2, _⟩ => fullShare | ⟨3, _⟩ => fullShare | ⟨4, _⟩ => fullShare
  | ⟨5, _⟩ => fullShare | ⟨6, _⟩ => fullShare | ⟨7, _⟩ => fullShare | ⟨8, _⟩ => fullShare
  | ⟨9, _⟩ => fullShare.left | ⟨10, _⟩ => fullShare.right
  | ⟨11, _⟩ => fullShare | ⟨12, _⟩ => fullShare

/-- The proof data of the pipeline on core `c`: the arrays as the region finds them; after the body at point `t`
    each input's buffer at its block and the two outputs' at `outRe` / `outIm` of the input blocks; the invariant
    the scoped rest and the generator register, untouched; nothing owed. -/
def dat0 (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => outRe (iblk V c 0 t) (iblk V c 1 t) (iblk V c 2 t) (iblk V c 3 t) (iblk V c 4 t) (iblk V c 5 t) (iblk V c 6 t) (iblk V c 7 t) (iblk V c 8 t) (iblk V c 9 t) (iblk V c 10 t)
    | ⟨12, _⟩ => outIm (iblk V c 0 t) (iblk V c 1 t) (iblk V c 2 t) (iblk V c 3 t) (iblk V c 4 t) (iblk V c 5 t) (iblk V c 6 t) (iblk V c 7 t) (iblk V c 8 t) (iblk V c 9 t) (iblk V c 10 t)
  Φ _ := Pipeline.ΦA spec0 c
  q := shareOf
  owed _ := 0

theorem A_eq (c : Dev nD) (w : Fin cfg0.W) : (dat0 V c).A w = V c (Pipeline.arrRef spec0 w) := by
  dsimp only [dat0]

theorem after0 (c : Dev nD) (t : Fin cfg0.N) : (dat0 V c).after 0 t = iblk V c 0 t := by dsimp only [dat0]
theorem after1 (c : Dev nD) (t : Fin cfg0.N) : (dat0 V c).after 1 t = iblk V c 1 t := by dsimp only [dat0]
theorem after2 (c : Dev nD) (t : Fin cfg0.N) : (dat0 V c).after 2 t = iblk V c 2 t := by dsimp only [dat0]
theorem after3 (c : Dev nD) (t : Fin cfg0.N) : (dat0 V c).after 3 t = iblk V c 3 t := by dsimp only [dat0]
theorem after4 (c : Dev nD) (t : Fin cfg0.N) : (dat0 V c).after 4 t = iblk V c 4 t := by dsimp only [dat0]
theorem after5 (c : Dev nD) (t : Fin cfg0.N) : (dat0 V c).after 5 t = iblk V c 5 t := by dsimp only [dat0]
theorem after6 (c : Dev nD) (t : Fin cfg0.N) : (dat0 V c).after 6 t = iblk V c 6 t := by dsimp only [dat0]
theorem after7 (c : Dev nD) (t : Fin cfg0.N) : (dat0 V c).after 7 t = iblk V c 7 t := by dsimp only [dat0]
theorem after8 (c : Dev nD) (t : Fin cfg0.N) : (dat0 V c).after 8 t = iblk V c 8 t := by dsimp only [dat0]
theorem after9 (c : Dev nD) (t : Fin cfg0.N) : (dat0 V c).after 9 t = iblk V c 9 t := by dsimp only [dat0]
theorem after10 (c : Dev nD) (t : Fin cfg0.N) : (dat0 V c).after 10 t = iblk V c 10 t := by dsimp only [dat0]
theorem after11 (c : Dev nD) (t : Fin cfg0.N) : (dat0 V c).after 11 t = outRe (iblk V c 0 t) (iblk V c 1 t) (iblk V c 2 t) (iblk V c 3 t) (iblk V c 4 t) (iblk V c 5 t) (iblk V c 6 t) (iblk V c 7 t) (iblk V c 8 t) (iblk V c 9 t) (iblk V c 10 t) := by dsimp only [dat0]
theorem after12 (c : Dev nD) (t : Fin cfg0.N) : (dat0 V c).after 12 t = outIm (iblk V c 0 t) (iblk V c 1 t) (iblk V c 2 t) (iblk V c 3 t) (iblk V c 4 t) (iblk V c 5 t) (iblk V c 6 t) (iblk V c 7 t) (iblk V c 8 t) (iblk V c 9 t) (iblk V c 10 t) := by dsimp only [dat0]

theorem before0 (c : Dev nD) (t : Fin cfg0.N) (d) : (dat0 V c).before 0 t d = iblk V c 0 t :=
  before0_of V (dat0 V c) (A_eq V c 0) (after0 V c) t d
theorem before1 (c : Dev nD) (t : Fin cfg0.N) (d) : (dat0 V c).before 1 t d = iblk V c 1 t :=
  before1_of V (dat0 V c) (A_eq V c 1) (after1 V c) t d
theorem before2 (c : Dev nD) (t : Fin cfg0.N) (d) : (dat0 V c).before 2 t d = iblk V c 2 t :=
  before2_of V (dat0 V c) (A_eq V c 2) (after2 V c) t d
theorem before3 (c : Dev nD) (t : Fin cfg0.N) (d) : (dat0 V c).before 3 t d = iblk V c 3 t :=
  before3_of V (dat0 V c) (A_eq V c 3) (after3 V c) t d
theorem before4 (c : Dev nD) (t : Fin cfg0.N) (d) : (dat0 V c).before 4 t d = iblk V c 4 t :=
  before4_of V (dat0 V c) (A_eq V c 4) (after4 V c) t d
theorem before5 (c : Dev nD) (t : Fin cfg0.N) (d) : (dat0 V c).before 5 t d = iblk V c 5 t :=
  before5_of V (dat0 V c) (A_eq V c 5) (after5 V c) t d
theorem before6 (c : Dev nD) (t : Fin cfg0.N) (d) : (dat0 V c).before 6 t d = iblk V c 6 t :=
  before6_of V (dat0 V c) (A_eq V c 6) (after6 V c) t d
theorem before7 (c : Dev nD) (t : Fin cfg0.N) (d) : (dat0 V c).before 7 t d = iblk V c 7 t :=
  before7_of V (dat0 V c) (A_eq V c 7) (after7 V c) t d
theorem before8 (c : Dev nD) (t : Fin cfg0.N) (d) : (dat0 V c).before 8 t d = iblk V c 8 t :=
  before8_of V (dat0 V c) (A_eq V c 8) (after8 V c) t d
theorem before9 (c : Dev nD) (t : Fin cfg0.N) (d) : (dat0 V c).before 9 t d = iblk V c 9 t :=
  before9_of V (dat0 V c) (A_eq V c 9) (after9 V c) t d
theorem before10 (c : Dev nD) (t : Fin cfg0.N) (d) : (dat0 V c).before 10 t d = iblk V c 10 t :=
  before10_of V (dat0 V c) (A_eq V c 10) (after10 V c) t d

/-! ## The body obligation, at a generic point -/

/-- What the body is called with at point `t`, the windows one by one, -/
def bodyPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d)))

/-- and what it returns. -/
def bodyPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t))

/-- The body at any point: the inputs' buffers hold their blocks, so the body's triple applies; the invariant and the
    core's dues pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3, before4, before5, before6, before7, before8, before9, before10]
  rw [show (dat0 V c).Φ t.succ = (dat0 V c).Φ t.castSucc from rfl,
    show (dat0 V c).owesAt () t.succ = (dat0 V c).owesAt () t.castSucc from rfl,
    after0, after1, after2, after3, after4, after5, after6, after7, after8, after9, after10, after11, after12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ _ _ _ _ _ _ _ _ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) (iblk V c 8 t) (iblk V c 9 t) (iblk V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The pipeline library's body obligation, at every point. -/
theorem body_obligation (c : Dev nD) : BodyObligation (dat0 (F := F) V c) (defs₀ (F := F)) Variants.none () Set.univ := fun t => by
  rw [bigSep_W0, bigSep_W0]
  exact sound_body V c t

end Cert.KernelIdeal.Hand

end
-- ==== Proof.KIShare.lean ====
/-
  One array behind two windows.

  The state array holds the real half of the state in its first 2048 columns and the imaginary half in the last 2048;
  the kernel reads both halves of the SAME array, through two input windows at different column blocks. The pipeline
  holds each input window's array at a share of its own, so at the region's entry the array's full share is dealt as
  its two halves, one to each window, and at the exit — both windows still holding the contents they were handed —
  the halves are joined again. Every other array stands behind exactly one window at the full share.
-/
import proofs.«176958_j13529146982869_1_alg».proof.Proof.Gen.KernelIdeal.Launch
import proofs.«176958_j13529146982869_1_alg».proof.Proof.Gen.KernelIdeal.Skeleton
import proofs.«176958_j13529146982869_1_alg».proof.Proof.Gen.KernelIdeal.Points
import proofs.«176958_j13529146982869_1_alg».proof.Proof.KIData
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The thirteen windows stand on twelve buffers -/

/-- The distinct buffers behind the windows' arrays: the nine operands the host prepares, the state array (behind
    windows 9 AND 10), and the two result arrays. -/
abbrev arrList : List (Ref sig .tc) :=
  [main_v0, main_v1, main_v2, main_v3, main_v4, main_v5, main_v6, main_v7, main_v8, main_arg1, main_v9_0, main_v9_1]

/-- The buffers behind the arrays, each whole at the full share, one by one. -/
theorem arrBufs_eq (c : Dev nD) (V' : (b : Ref sig .tc) → Buf (Elt F) ((c : Thread nD τ).loc b)) :
    (Pipeline.arrBufs (Ix := Unit) (Name := ℕ) (U := UR sig nD τ) (Lvl := ℕ) spec0 c V' : sProp 𝕄)
      = iprop((((c : Thread nD τ).loc main_v0) ↦{fullShare} V' main_v0) ∗ (((c : Thread nD τ).loc main_v1) ↦{fullShare} V' main_v1) ∗ (((c : Thread nD τ).loc main_v2) ↦{fullShare} V' main_v2) ∗ (((c : Thread nD τ).loc main_v3) ↦{fullShare} V' main_v3) ∗ (((c : Thread nD τ).loc main_v4) ↦{fullShare} V' main_v4) ∗ (((c : Thread nD τ).loc main_v5) ↦{fullShare} V' main_v5) ∗ (((c : Thread nD τ).loc main_v6) ↦{fullShare} V' main_v6) ∗ (((c : Thread nD τ).loc main_v7) ↦{fullShare} V' main_v7) ∗ (((c : Thread nD τ).loc main_v8) ↦{fullShare} V' main_v8) ∗ (((c : Thread nD τ).loc main_arg1) ↦{fullShare} V' main_arg1) ∗ (((c : Thread nD τ).loc main_v9_0) ↦{fullShare} V' main_v9_0) ∗ (((c : Thread nD τ).loc main_v9_1) ↦{fullShare} V' main_v9_1)) := by
  unfold Pipeline.arrBufs
  exact bigSep_eq_bigSepL_of_eq arrList (by decide) (by decide) _

/-- Each window's share of its array, by name. -/
theorem share_eq (c : Dev nD) : ∀ w : Fin cfg0.W, (dat0 V c).share w = shareOf w
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl

/-- The windows' arrays, every one a whole buffer, each at its window's share. -/
theorem arrays_eq' (c : Dev nD) (G : (w : Fin cfg0.W) → Buf (Elt F) ((cfg0.win w).arr.view.loc (c : Thread nD τ))) :
    (dat0 V c).arrays G = bigSep Finset.univ fun w : Fin cfg0.W =>
      (((c : Thread nD τ).loc (Pipeline.arrRef spec0 w)) ↦{shareOf w} G w : sProp 𝕄) := by
  unfold Dat.arrays
  exact bigSep_congr fun w _ => by rw [(arr_whole0 w).set_eq_univ, share_eq]

/-- ENTRY: the twelve buffers, whole at the full share at contents `V'`, are the thirteen windows' arrays at those
    contents — the state array's full share dealt as one half to each of its two windows. -/
theorem arrays_of_arrBufs (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (Pipeline.arrBufs (Ix := Unit) (Name := ℕ) (U := UR sig nD τ) (Lvl := ℕ) spec0 c V' : sProp 𝕄) ⊢ (dat0 V c).arrays G := by
  rw [arrays_eq', arrBufs_eq,
    show (fun w : Fin cfg0.W => (((c : Thread nD τ).loc (Pipeline.arrRef spec0 w)) ↦{shareOf w} G w : sProp 𝕄))
      = fun w => (((c : Thread nD τ).loc (Pipeline.arrRef spec0 w)) ↦{shareOf w} V' (Pipeline.arrRef spec0 w) : sProp 𝕄) from
      funext fun w => by rw [hG],
    bigSep_W0]
  iintro ⟨H0, H1, H2, H3, H4, H5, H6, H7, H8, Hh, H11, H12⟩
  ihave Hh' := (pointsTo_share (PosShare.mem_left_op_right fullShare)).1 $$ Hh
  icases Hh' with ⟨H9, H10⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- EXIT: the thirteen windows' arrays at contents read off `V'` are the twelve buffers whole at the full share at
    `V'` — the two halves of the state array's share, at the same contents, joined. -/
theorem arrBufs_of_arrays (c : Dev nD) (V' : (b : Ref sig .tc) → Buf (Elt F) ((c : Thread nD τ).loc b))
    (G : (w : Fin cfg0.W) → Buf (Elt F) ((cfg0.win w).arr.view.loc (c : Thread nD τ))) (hG : ∀ w, G w = V' (Pipeline.arrRef spec0 w)) :
    (dat0 V c).arrays G ⊢ (Pipeline.arrBufs (Ix := Unit) (Name := ℕ) (U := UR sig nD τ) (Lvl := ℕ) spec0 c V' : sProp 𝕄) := by
  rw [arrays_eq', arrBufs_eq,
    show (fun w : Fin cfg0.W => (((c : Thread nD τ).loc (Pipeline.arrRef spec0 w)) ↦{shareOf w} G w : sProp 𝕄))
      = fun w => (((c : Thread nD τ).loc (Pipeline.arrRef spec0 w)) ↦{shareOf w} V' (Pipeline.arrRef spec0 w) : sProp 𝕄) from
      funext fun w => by rw [hG],
    bigSep_W0]
  iintro ⟨H0, H1, H2, H3, H4, H5, H6, H7, H8, H9, H10, H11, H12⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9 H10]
  · iapply (pointsTo_share (PosShare.mem_left_op_right fullShare)).2
    isplitl [H9]; · iexact H9
    iexact H10
  isplitl [H11]; · iexact H11
  iexact H12

end Cert.KernelIdeal.Hand

end
-- ==== Proof.KIRun.lean ====
/-
  The run of the cell's program: host operations, the kernel region, a host operation.

  @main rounds the input batch and the four weight matrices to the matrix unit's operand format and reshapes the four
  biases to rows; runs the kernel over its 8 × 8 grid; and joins the two result arrays along the feature axis. Between
  these items the core holds every one of its unscoped buffers whole, at contents computed item by item: the launch
  memory, then the host operations' results, then the region's exit contents (the two result arrays at what the
  write-backs leave, everything else as entered), then the join. The region's entry deals the twelve buffers behind
  its thirteen windows to the windows and its exit takes them back.
-/
import proofs.«176958_j13529146982869_1_alg».proof.Proof.Gen.KernelIdeal.Launch
import proofs.«176958_j13529146982869_1_alg».proof.Proof.Gen.KernelIdeal.Skeleton
import proofs.«176958_j13529146982869_1_alg».proof.Proof.Gen.KernelIdeal.Points
import proofs.«176958_j13529146982869_1_alg».proof.Proof.KIShare
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between @main's items -/

/-- Core `c`'s buffers at launch. -/
abbrev W0 : Dev nD → Valuation τ sig (Elt F) := fun c b => (s₀ m ρ).mem ((c : Dev nD), b)
/-- After the host operations before the region: the operands rounded and reshaped. -/
abbrev W1 : Dev nD → Valuation τ sig (Elt F) := fun c => StableHlo.after hostOps0 (W0 m ρ c)
/-- The same read at the core's references (what the region's proof data take). -/
abbrev V1 : (c : Dev nD) → (b : Ref sig .tc) → Buf (Elt F) ((c : Thread nD τ).loc b) := fun c b => W1 m ρ c b

/-- At the region's exit: the two result arrays at what the write-backs leave, every other buffer as entered (the
    inputs are only read). -/
def W2 (c : Dev nD) : Valuation τ sig (Elt F) :=
  Function.update (Function.update (W1 m ρ c) (Proc.devRef .tc main_v9_0) ((dat0 (V1 m ρ) c).arrAt 11 cfg0.N))
    (Proc.devRef .tc main_v9_1) ((dat0 (V1 m ρ) c).arrAt 12 cfg0.N)

theorem W2_re (c : Dev nD) : W2 m ρ c (Proc.devRef .tc main_v9_0) = (dat0 (V1 m ρ) c).arrAt 11 cfg0.N := by
  unfold W2
  rw [Function.update_of_ne (StableHlo.devRef_ne_of_ne (by decide)), Function.update_self]
theorem W2_im (c : Dev nD) : W2 m ρ c (Proc.devRef .tc main_v9_1) = (dat0 (V1 m ρ) c).arrAt 12 cfg0.N := by
  unfold W2; rw [Function.update_self]
theorem W2_of_ne (c : Dev nD) (b : Ref sig .tc) (h0 : b ≠ main_v9_0) (h1 : b ≠ main_v9_1) :
    W2 m ρ c (Proc.devRef .tc b) = W1 m ρ c (Proc.devRef .tc b) := by
  unfold W2
  rw [Function.update_of_ne (StableHlo.devRef_ne_of_ne h1), Function.update_of_ne (StableHlo.devRef_ne_of_ne h0)]

/-- The same read at the core's references (the region's exit contents). -/
abbrev V2 : (c : Dev nD) → (b : Ref sig .tc) → Buf (Elt F) ((c : Thread nD τ).loc b) := fun c b => W2 m ρ c b

/-- At the exit every window's array holds what the pipeline leaves: an input's what it held at entry, an output's
    its write-backs folded. -/
theorem hF (c : Dev nD) : ∀ w : Fin cfg0.W, (dat0 (V1 m ρ) c).arrAt w cfg0.N = V2 m ρ c (Pipeline.arrRef spec0 w)
  | ⟨0, _⟩ => (((dat0 (V1 m ρ) c).arrAt_in 0 rfl _).trans (A_eq (V1 m ρ) c 0)).trans (W2_of_ne m ρ c main_v0 (by decide) (by decide)).symm
  | ⟨1, _⟩ => (((dat0 (V1 m ρ) c).arrAt_in 1 rfl _).trans (A_eq (V1 m ρ) c 1)).trans (W2_of_ne m ρ c main_v1 (by decide) (by decide)).symm
  | ⟨2, _⟩ => (((dat0 (V1 m ρ) c).arrAt_in 2 rfl _).trans (A_eq (V1 m ρ) c 2)).trans (W2_of_ne m ρ c main_v2 (by decide) (by decide)).symm
  | ⟨3, _⟩ => (((dat0 (V1 m ρ) c).arrAt_in 3 rfl _).trans (A_eq (V1 m ρ) c 3)).trans (W2_of_ne m ρ c main_v3 (by decide) (by decide)).symm
  | ⟨4, _⟩ => (((dat0 (V1 m ρ) c).arrAt_in 4 rfl _).trans (A_eq (V1 m ρ) c 4)).trans (W2_of_ne m ρ c main_v4 (by decide) (by decide)).symm
  | ⟨5, _⟩ => (((dat0 (V1 m ρ) c).arrAt_in 5 rfl _).trans (A_eq (V1 m ρ) c 5)).trans (W2_of_ne m ρ c main_v5 (by decide) (by decide)).symm
  | ⟨6, _⟩ => (((dat0 (V1 m ρ) c).arrAt_in 6 rfl _).trans (A_eq (V1 m ρ) c 6)).trans (W2_of_ne m ρ c main_v6 (by decide) (by decide)).symm
  | ⟨7, _⟩ => (((dat0 (V1 m ρ) c).arrAt_in 7 rfl _).trans (A_eq (V1 m ρ) c 7)).trans (W2_of_ne m ρ c main_v7 (by decide) (by decide)).symm
  | ⟨8, _⟩ => (((dat0 (V1 m ρ) c).arrAt_in 8 rfl _).trans (A_eq (V1 m ρ) c 8)).trans (W2_of_ne m ρ c main_v8 (by decide) (by decide)).symm
  | ⟨9, _⟩ => (((dat0 (V1 m ρ) c).arrAt_in 9 rfl _).trans (A_eq (V1 m ρ) c 9)).trans (W2_of_ne m ρ c main_arg1 (by decide) (by decide)).symm
  | ⟨10, _⟩ => (((dat0 (V1 m ρ) c).arrAt_in 10 rfl _).trans (A_eq (V1 m ρ) c 10)).trans (W2_of_ne m ρ c main_arg1 (by decide) (by decide)).symm
  | ⟨11, _⟩ => (W2_re m ρ c).symm
  | ⟨12, _⟩ => (W2_im m ρ c).symm
/-- and every buffer behind no window what it held at entry. -/
theorem hrest (c : Dev nD) : ∀ b, b ∉ Finset.univ.image (Pipeline.arrRef spec0) → V2 m ρ c b = V1 m ρ c b :=
  fun b hb => W2_of_ne m ρ c b
    (fun e => hb (Finset.mem_image.mpr ⟨11, Finset.mem_univ _, e.symm⟩))
    (fun e => hb (Finset.mem_image.mpr ⟨12, Finset.mem_univ _, e.symm⟩))

/-- After the host operation behind the region: the two result arrays joined along the feature axis. -/
abbrev W3 : Dev nD → Valuation τ sig (Elt F) := fun c => StableHlo.after hostOps1 (W2 m ρ c)

/-! ## The proof data family and the thread state -/

/-- No pallas_call has a prefetched table. -/
abbrev adm : (p : Fin 1) → (pcfgs (F := F) p).Adm := fun p => (cfgs p).toPCfg_adm
/-- The one pipeline's proof data, at the region's entry contents. -/
def pdats : (p : Fin 1) → (c : Dev nD) → Dat τ (Elt F) Unit ℕ (UR sig nD τ) ℕ (Pipeline.pin (pcfgs (F := F)) adm p) c
  | ⟨0, _⟩ => fun c => dat0 (V1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and the core's dues, none. -/
abbrev R (c : Dev nD) : sProp 𝕄 := iprop((∃ r, prngReg c r) ∗ ∃ W, owes (c : Thread nD τ) (0 : CellTallies nD τ sig Unit) W)
/-- A stretch of host operations as an item: over every unscoped buffer from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state, the dues apart: every unscoped buffer at the last contents, the generator register at some state. -/
abbrev Tₙ (c : Dev nD) : sProp 𝕄 := iprop(StableHlo.held (c : Thread nD τ) (Pipeline.ucRefs τ sig) (W3 m ρ c) ∗ ∃ r, prngReg c r)

/-! ## The region as an item -/

set_option backward.isDefEq.respectTransparency.types false in
/-- The region over the thread state: entered from every unscoped buffer at `W1`, left at `W2`. At entry the twelve
    buffers behind the windows are split out of the unscoped buffers and dealt to the thirteen windows (the state
    array's share halved between its two windows); at exit they are joined and put back. The generator register goes
    into the body's invariant and comes out; nothing is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit : (unscopedBufs (Ix := Unit) (Name := ℕ) (U := UR sig nD τ) (Lvl := ℕ) c (V1 m ρ c) : sProp 𝕄)
        ⊢ iprop((pdats m ρ 0 c).arrays ((pdats m ρ 0 c).arrAt · 0)
            ∗ Pipeline.unscopedRest (Ix := Unit) (Name := ℕ) (U := UR sig nD τ) (Lvl := ℕ) spec0 c (V1 m ρ c)) := by
      rw [Pipeline.unscopedBufs_split₀ cfgs 0 winFacts₀0.arr_unscoped c (V1 m ρ c)]
      exact sep_mono (arrays_of_arrBufs (V1 m ρ) c (V1 m ρ c) _ (fun _ => rfl)) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m ρ 0 c).arrays ((pdats m ρ 0 c).arrAt · cfg0.N)
          ∗ Pipeline.unscopedRest (Ix := Unit) (Name := ℕ) (U := UR sig nD τ) (Lvl := ℕ) spec0 c (V1 m ρ c))
        ⊢ (unscopedBufs (Ix := Unit) (Name := ℕ) (U := UR sig nD τ) (Lvl := ℕ) c (V2 m ρ c) : sProp 𝕄) := by
      rw [Pipeline.unscopedBufs_split₀ cfgs 0 winFacts₀0.arr_unscoped c (V2 m ρ c)]
      refine sep_mono (arrBufs_of_arrays (V1 m ρ) c (V2 m ρ c) _ (hF m ρ c)) (Entails.of_eq ?_)
      unfold Pipeline.unscopedRest
      exact bigSep_congr fun b hb => by rw [hrest m ρ c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as items, and the launch -/

/-- @main's three items in order: the host operations before the region, the region, the host operation after it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)) ]
/-- @main is the run of the items. -/
theorem main_run (c : Dev nD) : main (F := F) c = Pipeline.Seg.run (segs m ρ) := (main_chain c).trans (by chain_rfl)

set_option backward.isDefEq.respectTransparency.types false in
/-- THE RUN: from any memory with zero counters, every weakly fair execution of @main on the cores terminates, nothing
    faulting, and every final state holds every unscoped buffer at the last contents `W3`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      show iprop(StableHlo.held (c : Thread nD τ) (Pipeline.ucRefs τ sig) (StableHlo.after hostOps1 (W2 m ρ c)) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

end Cert.KernelIdeal.Hand

end
-- ==== Proof.KIFrame.lean ====
/-
  The arguments of the cell's program end as launched: the frame.

  The run ends with every unscoped buffer at the last contents; an argument's buffer is written by no host operation
  and by no write-back of the region (the region only reads its inputs), so its last contents are the launch memory's.
-/
import proofs.«176958_j13529146982869_1_alg».proof.Proof.Gen.KernelIdeal.Launch
import proofs.«176958_j13529146982869_1_alg».proof.Proof.Gen.KernelIdeal.Skeleton
import proofs.«176958_j13529146982869_1_alg».proof.Proof.Gen.KernelIdeal.Points
import proofs.«176958_j13529146982869_1_alg».proof.Proof.KIRun
import Idealize.ShloMosaic.Lib.StableHlo.Run
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## No item writes an argument

The host operations before the region write the nine operands they prepare, the region its two result arrays, the host
operation after it the joined result; so at an argument's buffer the last contents walk back to the launch memory. -/

theorem W3_main_arg0 (c : Dev nD) : W3 m ρ c (Proc.devRef .tc main_arg0) = m ((c : Thread nD τ).loc main_arg0) := by
  show StableHlo.after hostOps1 (W2 m ρ c) (Proc.devRef .tc main_arg0) = _
  dsimp only [hostOps1]
  after_results
  rw [W2_of_ne m ρ c main_arg0 (by decide) (by decide)]
  show StableHlo.after hostOps0 (W0 m ρ c) (Proc.devRef .tc main_arg0) = _
  dsimp only [hostOps0]
  after_results
theorem W3_main_arg1 (c : Dev nD) : W3 m ρ c (Proc.devRef .tc main_arg1) = m ((c : Thread nD τ).loc main_arg1) := by
  show StableHlo.after hostOps1 (W2 m ρ c) (Proc.devRef .tc main_arg1) = _
  dsimp only [hostOps1]
  after_results
  rw [W2_of_ne m ρ c main_arg1 (by decide) (by decide)]
  show StableHlo.after hostOps0 (W0 m ρ c) (Proc.devRef .tc main_arg1) = _
  dsimp only [hostOps0]
  after_results
theorem W3_main_arg2 (c : Dev nD) : W3 m ρ c (Proc.devRef .tc main_arg2) = m ((c : Thread nD τ).loc main_arg2) := by
  show StableHlo.after hostOps1 (W2 m ρ c) (Proc.devRef .tc main_arg2) = _
  dsimp only [hostOps1]
  after_results
  rw [W2_of_ne m ρ c main_arg2 (by decide) (by decide)]
  show StableHlo.after hostOps0 (W0 m ρ c) (Proc.devRef .tc main_arg2) = _
  dsimp only [hostOps0]
  after_results
theorem W3_main_arg3 (c : Dev nD) : W3 m ρ c (Proc.devRef .tc main_arg3) = m ((c : Thread nD τ).loc main_arg3) := by
  show StableHlo.after hostOps1 (W2 m ρ c) (Proc.devRef .tc main_arg3) = _
  dsimp only [hostOps1]
  after_results
  rw [W2_of_ne m ρ c main_arg3 (by decide) (by decide)]
  show StableHlo.after hostOps0 (W0 m ρ c) (Proc.devRef .tc main_arg3) = _
  dsimp only [hostOps0]
  after_results
theorem W3_main_arg4 (c : Dev nD) : W3 m ρ c (Proc.devRef .tc main_arg4) = m ((c : Thread nD τ).loc main_arg4) := by
  show StableHlo.after hostOps1 (W2 m ρ c) (Proc.devRef .tc main_arg4) = _
  dsimp only [hostOps1]
  after_results
  rw [W2_of_ne m ρ c main_arg4 (by decide) (by decide)]
  show StableHlo.after hostOps0 (W0 m ρ c) (Proc.devRef .tc main_arg4) = _
  dsimp only [hostOps0]
  after_results
theorem W3_main_arg5 (c : Dev nD) : W3 m ρ c (Proc.devRef .tc main_arg5) = m ((c : Thread nD τ).loc main_arg5) := by
  show StableHlo.after hostOps1 (W2 m ρ c) (Proc.devRef .tc main_arg5) = _
  dsimp only [hostOps1]
  after_results
  rw [W2_of_ne m ρ c main_arg5 (by decide) (by decide)]
  show StableHlo.after hostOps0 (W0 m ρ c) (Proc.devRef .tc main_arg5) = _
  dsimp only [hostOps0]
  after_results
theorem W3_main_arg6 (c : Dev nD) : W3 m ρ c (Proc.devRef .tc main_arg6) = m ((c : Thread nD τ).loc main_arg6) := by
  show StableHlo.after hostOps1 (W2 m ρ c) (Proc.devRef .tc main_arg6) = _
  dsimp only [hostOps1]
  after_results
  rw [W2_of_ne m ρ c main_arg6 (by decide) (by decide)]
  show StableHlo.after hostOps0 (W0 m ρ c) (Proc.devRef .tc main_arg6) = _
  dsimp only [hostOps0]
  after_results
theorem W3_main_arg7 (c : Dev nD) : W3 m ρ c (Proc.devRef .tc main_arg7) = m ((c : Thread nD τ).loc main_arg7) := by
  show StableHlo.after hostOps1 (W2 m ρ c) (Proc.devRef .tc main_arg7) = _
  dsimp only [hostOps1]
  after_results
  rw [W2_of_ne m ρ c main_arg7 (by decide) (by decide)]
  show StableHlo.after hostOps0 (W0 m ρ c) (Proc.devRef .tc main_arg7) = _
  dsimp only [hostOps0]
  after_results
theorem W3_main_arg8 (c : Dev nD) : W3 m ρ c (Proc.devRef .tc main_arg8) = m ((c : Thread nD τ).loc main_arg8) := by
  show StableHlo.after hostOps1 (W2 m ρ c) (Proc.devRef .tc main_arg8) = _
  dsimp only [hostOps1]
  after_results
  rw [W2_of_ne m ρ c main_arg8 (by decide) (by decide)]
  show StableHlo.after hostOps0 (W0 m ρ c) (Proc.devRef .tc main_arg8) = _
  dsimp only [hostOps0]
  after_results
theorem W3_main_arg9 (c : Dev nD) : W3 m ρ c (Proc.devRef .tc main_arg9) = m ((c : Thread nD τ).loc main_arg9) := by
  show StableHlo.after hostOps1 (W2 m ρ c) (Proc.devRef .tc main_arg9) = _
  dsimp only [hostOps1]
  after_results
  rw [W2_of_ne m ρ c main_arg9 (by decide) (by decide)]
  show StableHlo.after hostOps0 (W0 m ρ c) (Proc.devRef .tc main_arg9) = _
  dsimp only [hostOps0]
  after_results

/-- THE FRAME: from any memory with zero counters, every weakly fair execution of @main terminates, nothing faulting,
    and every final state holds each argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧       r.2.mem ((c.tc : Thread nD τ).loc main_arg1) = m ((c.tc : Thread nD τ).loc main_arg1)
      ∧       r.2.mem ((c.tc : Thread nD τ).loc main_arg2) = m ((c.tc : Thread nD τ).loc main_arg2)
      ∧       r.2.mem ((c.tc : Thread nD τ).loc main_arg3) = m ((c.tc : Thread nD τ).loc main_arg3)
      ∧       r.2.mem ((c.tc : Thread nD τ).loc main_arg4) = m ((c.tc : Thread nD τ).loc main_arg4)
      ∧       r.2.mem ((c.tc : Thread nD τ).loc main_arg5) = m ((c.tc : Thread nD τ).loc main_arg5)
      ∧       r.2.mem ((c.tc : Thread nD τ).loc main_arg6) = m ((c.tc : Thread nD τ).loc main_arg6)
      ∧       r.2.mem ((c.tc : Thread nD τ).loc main_arg7) = m ((c.tc : Thread nD τ).loc main_arg7)
      ∧       r.2.mem ((c.tc : Thread nD τ).loc main_arg8) = m ((c.tc : Thread nD τ).loc main_arg8)
      ∧       r.2.mem ((c.tc : Thread nD τ).loc main_arg9) = m ((c.tc : Thread nD τ).loc main_arg9)) :=
  (θ_run defs _ _).mono (fun r h c => ⟨(h c _ (mem_uc main_arg0 (by decide))).trans (W3_main_arg0 m ρ c),
    (h c _ (mem_uc main_arg1 (by decide))).trans (W3_main_arg1 m ρ c),
    (h c _ (mem_uc main_arg2 (by decide))).trans (W3_main_arg2 m ρ c),
    (h c _ (mem_uc main_arg3 (by decide))).trans (W3_main_arg3 m ρ c),
    (h c _ (mem_uc main_arg4 (by decide))).trans (W3_main_arg4 m ρ c),
    (h c _ (mem_uc main_arg5 (by decide))).trans (W3_main_arg5 m ρ c),
    (h c _ (mem_uc main_arg6 (by decide))).trans (W3_main_arg6 m ρ c),
    (h c _ (mem_uc main_arg7 (by decide))).trans (W3_main_arg7 m ρ c),
    (h c _ (mem_uc main_arg8 (by decide))).trans (W3_main_arg8 m ρ c),
    (h c _ (mem_uc main_arg9 (by decide))).trans (W3_main_arg9 m ρ c)⟩) (run m ρ)

end Cert.KernelIdeal.Hand

end
-- ==== Proof.Spec.lean ====
/-
  The cell as ONE function of the argument arrays, on the extended reals.

  For a batch row `r` and a feature `c < 2048`, each of the four projections is the inner product of row `r` of
  `e` with row `c` of its weight matrix, plus its bias at `c` (`lin`). With `p = 1 / (1 + exp (-lin_p))`,
  `θ = lin_θ`, and the previous state `h = (h_re | h_im)` stored side by side along the feature axis
  (`h_re` at columns `c`, `h_im` at columns `2048 + c`), the new state is the rotation of `h` by `θ` gated against
  the projected input:

    re r c = (1 - p) * (cos θ * h_re - sin θ * h_im) + p * lin_r
    im r c = (1 - p) * (sin θ * h_re + cos θ * h_im) + p * lin_i

  and the result array puts `re` at columns `< 2048` and `im` at columns `≥ 2048` (`cell`).
  The constant `1` is kept as its binary32 word; `one_eq` evaluates it once.
-/
import Idealize.ShloMosaic.PureOps.Ideal
import Idealize.ShloMosaic.Lib.ValueIdx

noncomputable section

namespace Cert.Cell

open Idealize.ShloMosaic Idealize.ShloMosaic.ValueIdx

/-- The shapes of the arguments: the input batch, the state (real and imaginary halves side by side), a weight
    matrix, a bias vector. -/
abbrev SE : Shape := ⟨2, ![8192, 2048]⟩
abbrev SH : Shape := ⟨2, ![8192, 4096]⟩
abbrev SW : Shape := ⟨2, ![2048, 2048]⟩
abbrev SB : Shape := ⟨1, ![2048]⟩

/-- The binary32 word of `1.0`, as the extended real it denotes. -/
abbrev one : EReal := Ideal.ofBits .f32 0x3F800000#32

/-- The word `0x3F800000` denotes the real number one. -/
theorem one_eq : one = (1 : EReal) := by
  have h : ((8388608 : ℝ) * ((2 : ℝ) ^ 23)⁻¹ : ℝ) = 1 := by norm_num
  simp [one, Ideal.ofBits, Ideal.ieee]
  exact_mod_cast h

/-- Column `c` of the imaginary half of the state sits at column `2048 + c`. -/
abbrev hi (c : Fin 2048) : Fin 4096 := ⟨2048 + c.val, by omega⟩
/-- Column `c` of the real half of the state sits at column `c`. -/
abbrev lo (c : Fin 2048) : Fin 4096 := ⟨c.val, by omega⟩

/-- One projection before its nonlinearity: row `r` of `e` against row `c` of `W`, plus `b c`. -/
def lin (e : SE.Idx → EReal) (W : SW.Idx → EReal) (b : SB.Idx → EReal) (r : Fin 8192) (c : Fin 2048) : EReal :=
  (∑ k : Fin 2048, e (ix2 r k) * W (ix2 c k)) + b (ix1 c)

/-- The gate `1 / (1 + exp (-x))`, with the quotient and exponential of the extended reals. -/
def gate (x : EReal) : EReal := Ideal.div one (one + Ideal.exp (-x))

/-- The gate is the logistic function. -/
theorem gate_eq (x : EReal) : gate x = Ideal.logistic x := by
  unfold gate Ideal.logistic; rw [one_eq]

section

variable (e : SE.Idx → EReal) (h : SH.Idx → EReal)
  (Wp : SW.Idx → EReal) (bp : SB.Idx → EReal) (Wt : SW.Idx → EReal) (bt : SB.Idx → EReal)
  (Wr : SW.Idx → EReal) (br : SB.Idx → EReal) (Wi : SW.Idx → EReal) (bi : SB.Idx → EReal)

/-- The real half of the new state at row `r`, feature `c`. -/
def re (r : Fin 8192) (c : Fin 2048) : EReal :=
  (one - gate (lin e Wp bp r c))
      * (Ideal.cos (lin e Wt bt r c) * h (ix2 r (lo c)) - Ideal.sin (lin e Wt bt r c) * h (ix2 r (hi c)))
    + gate (lin e Wp bp r c) * lin e Wr br r c

/-- The imaginary half of the new state at row `r`, feature `c`. -/
def im (r : Fin 8192) (c : Fin 2048) : EReal :=
  (one - gate (lin e Wp bp r c))
      * (Ideal.sin (lin e Wt bt r c) * h (ix2 r (lo c)) + Ideal.cos (lin e Wt bt r c) * h (ix2 r (hi c)))
    + gate (lin e Wp bp r c) * lin e Wi bi r c

/-- The two halves as arrays of shape [8192, 2048]. -/
def reArr : SE.Idx → EReal := fun j => re e h Wp bp Wt bt Wr br (j 0) (j 1)
def imArr : SE.Idx → EReal := fun j => im e h Wp bp Wt bt Wi bi (j 0) (j 1)

/-- The result, of shape [8192, 4096]: the real half at columns `< 2048`, the imaginary half after it. -/
def cell : SH.Idx → EReal := fun j =>
  if hlt : (j 1).val < 2048 then re e h Wp bp Wt bt Wr br (j 0) ⟨(j 1).val, hlt⟩
  else im e h Wp bp Wt bt Wi bi (j 0) ⟨(j 1).val - 2048, by have := idx2_lt1 j; omega⟩

end

end Cert.Cell

end
-- ==== Proof.PayCell.lean ====
/-
  One grid point's arithmetic, read at one entry of its result blocks, on the extended reals.

  A grid point holds a [1024, 2048] block `xe` of the input batch, four [256, 2048] blocks of weight rows (one per
  projection: gate, angle, real part, imaginary part), their four [1, 256] bias rows, and the [1024, 256] blocks
  `hre`, `him` of the two halves of the previous state. For a row `p` and a feature `q` of the tile each projection is

    blockLin xe w b p q = (∑ k, xe (p, k) * w (q, k)) + b (0, q):

  the product contracts the LAST axis of both operands into a zero accumulator, so the entry at (p, q) is the inner
  product of row `p` of `xe` with row `q` of `w`; the bias row is repeated down the 1024 rows. With
  `g = gate (blockLin … wp bp)` and `θ = blockLin … wt bt`, the two stored blocks are

    (1 - g) * (cos θ * hre - sin θ * him) + g * blockLin … wr br      (real half)
    (1 - g) * (sin θ * hre + cos θ * him) + g * blockLin … wi bi      (imaginary half)

  entry by entry. Nothing is reordered: each side is the same sum term by term, so no finiteness is needed.
-/
import proofs.«176958_j13529146982869_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«176958_j13529146982869_1_alg».proof.Proof.Spec

noncomputable section

namespace Cert.KernelIdeal.PayValue

open Idealize.ShloMosaic Idealize.ShloMosaic.ValueIdx Cert.KernelIdeal

/-- One projection of the tile before its nonlinearity: row `p` of `xe` against row `q` of `w`, plus the bias at `q`. -/
def blockLin (xe : FVec Ideal S1024x2048 .bf16) (w : FVec Ideal S256x2048 .bf16) (b : FVec Ideal S1x256 .f32)
    (p : Fin 1024) (q : Fin 256) : EReal :=
  (∑ k : Fin 2048, xe (ix2 p k) * w (ix2 q k)) + b (ix2 (0 : Fin 1) q)

/-- The left operand's index at output entry `i` and contraction position `c`: the row is the output's row … -/
theorem lhs_row (i : S1024x256.Idx) (c : dot_S1024x2048_S256x2048_S1024x256_1_1_0_0_n_n.contr.Idx) :
    (dot_S1024x2048_S256x2048_S1024x256_1_1_0_0_n_n.lhsIdx i c 0).val = (i 0).val := by
  unfold DotDims.lhsIdx
  rw [dif_neg (show ¬(0 : Fin S1024x2048.rank) ∈ dot_S1024x2048_S256x2048_S1024x256_1_1_0_0_n_n.lhsBatch by decide),
    dif_pos (show (0 : Fin S1024x2048.rank) ∈ dot_S1024x2048_S256x2048_S1024x256_1_1_0_0_n_n.lhsNonContracting by decide)]
  rfl
/-- … and the column is the contraction position. -/
theorem lhs_col (i : S1024x256.Idx) (c : dot_S1024x2048_S256x2048_S1024x256_1_1_0_0_n_n.contr.Idx) :
    (dot_S1024x2048_S256x2048_S1024x256_1_1_0_0_n_n.lhsIdx i c 1).val = (c ⟨0, by decide⟩).val :=
  dot_S1024x2048_S256x2048_S1024x256_1_1_0_0_n_n.lhsIdx_val_of_single rfl i c
/-- The right operand's index: the row is the output's COLUMN (the weight block is stored feature by feature) … -/
theorem rhs_row (i : S1024x256.Idx) (c : dot_S1024x2048_S256x2048_S1024x256_1_1_0_0_n_n.contr.Idx) :
    (dot_S1024x2048_S256x2048_S1024x256_1_1_0_0_n_n.rhsIdx i c 0).val = (i 1).val := by
  unfold DotDims.rhsIdx
  rw [dif_neg (show ¬(0 : Fin S256x2048.rank) ∈ dot_S1024x2048_S256x2048_S1024x256_1_1_0_0_n_n.rhsBatch by decide),
    dif_pos (show (0 : Fin S256x2048.rank) ∈ dot_S1024x2048_S256x2048_S1024x256_1_1_0_0_n_n.rhsNonContracting by decide)]
  rfl
/-- … and the column is the contraction position. -/
theorem rhs_col (i : S1024x256.Idx) (c : dot_S1024x2048_S256x2048_S1024x256_1_1_0_0_n_n.contr.Idx) :
    (dot_S1024x2048_S256x2048_S1024x256_1_1_0_0_n_n.rhsIdx i c 1).val = (c ⟨0, by decide⟩).val :=
  dot_S1024x2048_S256x2048_S1024x256_1_1_0_0_n_n.rhsIdx_val_of_single rfl i c

/-- The product of the two blocks into a zero accumulator, at (p, q): the contraction runs over the last axis of both
    operands, and its one-axis index set is `Fin 2048`. -/
theorem matmul_zero_apply (xe : FVec Ideal S1024x2048 .bf16) (w : FVec Ideal S256x2048 .bf16) (p : Fin 1024) (q : Fin 256) :
    matmul (F := Ideal) dot_S1024x2048_S256x2048_S1024x256_1_1_0_0_n_n none xe w (constant (F := Ideal) S1024x256 .f32 0x00000000#32) (ix2 p q)
      = ∑ k : Fin 2048, xe (ix2 p k) * w (ix2 q k) := by
  refine (Ideal.matmul_constant_zero_apply dot_S1024x2048_S256x2048_S1024x256_1_1_0_0_n_n none xe w (ix2 p q)).trans ?_
  rw [← Equiv.sum_comp (contrEquiv1 dot_S1024x2048_S256x2048_S1024x256_1_1_0_0_n_n 2048 rfl rfl).symm]
  refine Finset.sum_congr rfl fun k _ => ?_
  have hk := contrEquiv1_symm_val dot_S1024x2048_S256x2048_S1024x256_1_1_0_0_n_n 2048 rfl rfl k
  have el : dot_S1024x2048_S256x2048_S1024x256_1_1_0_0_n_n.lhsIdx (ix2 p q) ((contrEquiv1 dot_S1024x2048_S256x2048_S1024x256_1_1_0_0_n_n 2048 rfl rfl).symm k) = ix2 p k :=
    funext fun a => Fin.ext (by
      match a with
      | ⟨0, _⟩ => exact lhs_row _ _
      | ⟨1, _⟩ => exact (lhs_col _ _).trans hk)
  have er : dot_S1024x2048_S256x2048_S1024x256_1_1_0_0_n_n.rhsIdx (ix2 p q) ((contrEquiv1 dot_S1024x2048_S256x2048_S1024x256_1_1_0_0_n_n 2048 rfl rfl).symm k) = ix2 q k :=
    funext fun a => Fin.ext (by
      match a with
      | ⟨0, _⟩ => exact rhs_row _ _
      | ⟨1, _⟩ => exact (rhs_col _ _).trans hk)
  rw [el, er]

/-- A projection as the body computes it — the blocks cast to their own shapes, multiplied into a zero accumulator,
    the bias row repeated down the rows and added — is `blockLin` at (p, q). -/
theorem lin_apply (xe : FVec Ideal S1024x2048 .bf16) (w : FVec Ideal S256x2048 .bf16) (b : FVec Ideal S1x256 .f32)
    (p : Fin 1024) (q : Fin 256) :
    addf (matmul (F := Ideal) dot_S1024x2048_S256x2048_S1024x256_1_1_0_0_n_n none
          (shapeCast S1024x2048 xe Gen.shapeCasts_S1024x2048_S1024x2048)
          (shapeCast S256x2048 w Gen.shapeCasts_S256x2048_S256x2048)
          (constant (F := Ideal) S1024x256 .f32 0x00000000#32))
        (broadcastTo S1024x256 (shapeCast S1x256 b Gen.shapeCasts_S1x256_S1x256) Gen.broadcasts_S1x256_S1024x256) (ix2 p q)
      = blockLin xe w b p q := by
  rw [shapeCast_self, shapeCast_self, shapeCast_self, addf_apply, matmul_zero_apply, broadcastTo_1b_ab_apply]
  rfl

/-- The angle projection, before its cosine and sine. -/
theorem pay5_apply (xe : FVec Ideal S1024x2048 .bf16) (w : FVec Ideal S256x2048 .bf16) (b : FVec Ideal S1x256 .f32)
    (p : Fin 1024) (q : Fin 256) : Gen.k0_pay5 (F := Ideal) xe w b (ix2 p q) = blockLin xe w b p q :=
  lin_apply xe w b p q

/-- The projection onto the real part. -/
theorem pay6_apply (xe : FVec Ideal S1024x2048 .bf16) (w : FVec Ideal S256x2048 .bf16) (b : FVec Ideal S1x256 .f32)
    (p : Fin 1024) (q : Fin 256) : Gen.k0_pay6 (F := Ideal) xe w b (ix2 p q) = blockLin xe w b p q :=
  lin_apply xe w b p q

/-- The projection onto the imaginary part. -/
theorem pay7_apply (xe : FVec Ideal S1024x2048 .bf16) (w : FVec Ideal S256x2048 .bf16) (b : FVec Ideal S1x256 .f32)
    (p : Fin 1024) (q : Fin 256) : Gen.k0_pay7 (F := Ideal) xe w b (ix2 p q) = blockLin xe w b p q :=
  lin_apply xe w b p q

/-- The gate: the logistic function of its projection, which is `1 / (1 + exp (-x))`. -/
theorem pay8_apply (xe : FVec Ideal S1024x2048 .bf16) (w : FVec Ideal S256x2048 .bf16) (b : FVec Ideal S1x256 .f32)
    (p : Fin 1024) (q : Fin 256) : Gen.k0_pay8 (F := Ideal) xe w b (ix2 p q) = Cell.gate (blockLin xe w b p q) :=
  (congrArg Ideal.logistic (lin_apply xe w b p q)).trans (Cell.gate_eq _).symm

/-- The cosine of the angle. -/
theorem pay9_apply (xe : FVec Ideal S1024x2048 .bf16) (w : FVec Ideal S256x2048 .bf16) (b : FVec Ideal S1x256 .f32)
    (p : Fin 1024) (q : Fin 256) : Gen.k0_pay9 (F := Ideal) xe w b (ix2 p q) = Ideal.cos (blockLin xe w b p q) :=
  congrArg Ideal.cos (lin_apply xe w b p q)

/-- The sine of the angle. -/
theorem pay10_apply (xe : FVec Ideal S1024x2048 .bf16) (w : FVec Ideal S256x2048 .bf16) (b : FVec Ideal S1x256 .f32)
    (p : Fin 1024) (q : Fin 256) : Gen.k0_pay10 (F := Ideal) xe w b (ix2 p q) = Ideal.sin (blockLin xe w b p q) :=
  congrArg Ideal.sin (lin_apply xe w b p q)

/-- One minus the gate, the one being the binary32 word of `1.0` repeated over the block. -/
theorem pay1_apply (g : FVec Ideal S1024x256 .f32) (j : S1024x256.Idx) :
    Gen.k0_pay1 (F := Ideal) g j = Cell.one - g j := rfl

/-- The real half of the new state at (p, q): the previous state rotated by the angle, weighed by one minus the gate,
    plus the gate times the projected input's real part. -/
theorem pay_re (xe : FVec Ideal S1024x2048 .bf16) (wp wt wr wi : FVec Ideal S256x2048 .bf16)
    (bp bt br bi : FVec Ideal S1x256 .f32) (hre him : FVec Ideal S1024x256 .f32) (p : Fin 1024) (q : Fin 256) :
    Gen.k0_pay2 (F := Ideal) (Gen.k0_pay6 xe wr br) (Gen.k0_pay8 xe wp bp) (Gen.k0_pay9 xe wt bt) (Gen.k0_pay10 xe wt bt)
        hre him (ix2 p q)
      = (Cell.one - Cell.gate (blockLin xe wp bp p q))
          * (Ideal.cos (blockLin xe wt bt p q) * hre (ix2 p q) - Ideal.sin (blockLin xe wt bt p q) * him (ix2 p q))
        + Cell.gate (blockLin xe wp bp p q) * blockLin xe wr br p q := by
  show Gen.k0_pay1 (F := Ideal) (Gen.k0_pay8 xe wp bp) (ix2 p q)
        * (Gen.k0_pay9 (F := Ideal) xe wt bt (ix2 p q) * hre (ix2 p q) - Gen.k0_pay10 (F := Ideal) xe wt bt (ix2 p q) * him (ix2 p q))
      + Gen.k0_pay8 (F := Ideal) xe wp bp (ix2 p q) * Gen.k0_pay6 (F := Ideal) xe wr br (ix2 p q) = _
  rw [pay1_apply, pay8_apply, pay9_apply, pay10_apply, pay6_apply]

/-- The imaginary half of the new state at (p, q). -/
theorem pay_im (xe : FVec Ideal S1024x2048 .bf16) (wp wt wr wi : FVec Ideal S256x2048 .bf16)
    (bp bt br bi : FVec Ideal S1x256 .f32) (hre him : FVec Ideal S1024x256 .f32) (p : Fin 1024) (q : Fin 256) :
    Gen.k0_pay3 (F := Ideal) (Gen.k0_pay7 xe wi bi) (Gen.k0_pay8 xe wp bp) (Gen.k0_pay9 xe wt bt) (Gen.k0_pay10 xe wt bt)
        hre him (ix2 p q)
      = (Cell.one - Cell.gate (blockLin xe wp bp p q))
          * (Ideal.sin (blockLin xe wt bt p q) * hre (ix2 p q) + Ideal.cos (blockLin xe wt bt p q) * him (ix2 p q))
        + Cell.gate (blockLin xe wp bp p q) * blockLin xe wi bi p q := by
  show Gen.k0_pay1 (F := Ideal) (Gen.k0_pay8 xe wp bp) (ix2 p q)
        * (Gen.k0_pay10 (F := Ideal) xe wt bt (ix2 p q) * hre (ix2 p q) + Gen.k0_pay9 (F := Ideal) xe wt bt (ix2 p q) * him (ix2 p q))
      + Gen.k0_pay8 (F := Ideal) xe wp bp (ix2 p q) * Gen.k0_pay7 (F := Ideal) xe wi bi (ix2 p q) = _
  rw [pay1_apply, pay8_apply, pay9_apply, pay10_apply, pay7_apply]

end Cert.KernelIdeal.PayValue

end
-- ==== Proof.KIValue.lean ====
/-
  The two result arrays of the cell's kernel, as functions of the arrays the region finds.

  The grid is 8 × 8, walked row by row: point `t` is the tile (i, j) = (t / 8, t % 8), rows [1024 i, 1024 (i+1)) of the
  batch and features [256 j, 256 (j+1)). At that point the batch block is rows 1024 i + p of the batch; each weight
  block is rows 256 j + q of its matrix (row `c` of a weight matrix is feature `c`); each bias block is entries
  256 j + q of its bias; the real half's block is the state at (1024 i + p, 256 j + q) and the imaginary half's the
  state at (1024 i + p, 2048 + 256 j + q), because the imaginary half sits 8 column blocks to the right. So each
  projection of the blocks at (p, q) is the projection of the arrays at row 1024 i + p and feature 256 j + q — the same
  sum over the 2048 input columns, term by term — and what the point writes back is the tile (i, j) of the real half
  `Cell.reArr`, respectively of the imaginary half `Cell.imArr`. The 64 tiles cover the [8192, 2048] arrays: entry
  (r, c) lies in the tile of the point 8 (r / 1024) + c / 256. Hence each array ends holding its half, everywhere.
-/
import proofs.«176958_j13529146982869_1_alg».proof.Proof.KIData
import proofs.«176958_j13529146982869_1_alg».proof.Proof.PayCell
import proofs.«176958_j13529146982869_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen
open Idealize.ShloMosaic Idealize.ShloMosaic.TcCoe Idealize.ShloMosaic.ValueIdx Idealize.SL.Sem
open Idealize.ShloMosaic.Pipeline (Dat)

-- the core's buffer contents when the region is entered
variable (V : (c : Dev nD) → (b : Ref sig .tc) → Buf (Elt Ideal) ((c : Thread nD τ).loc b))

/-- A bias as the kernel holds it, one row of 2048 entries, read as the vector of the specification. -/
def row (b : FVec Ideal S1x2048 .f32) : Cert.Cell.SB.Idx → EReal := fun j => b (ix2 (0 : Fin 1) (j 0))

theorem hz : (![0, 0] : Fin 2 → Nat) = fun _ => 0 := funext fun a => by fin_cases a <;> rfl

/-! ## The tile of a grid point -/

/-- The tile's row: the grid is walked row by row, 8 points to a row. -/
def tileRow (t : Fin cfg0.N) : Fin 8 := ⟨t.val / 8, by have hN : cfg0.N = 64 := N_0; have := t.isLt; omega⟩
/-- The tile's column. -/
def tileCol (t : Fin cfg0.N) : Fin 8 := ⟨t.val % 8, by omega⟩

/-! ## The windows' index maps, evaluated once over the 64 points -/

/-- Window 0: the batch block moves with the tile's row and spans all 2048 columns. -/
theorem idx0 : ∀ t : Fin cfg0.N, win0_0.index t (0 : Fin 2) = t.val / 8 ∧ win0_0.index t (1 : Fin 2) = 0 :=
  (by decide +kernel : ∀ t : Fin grid0.N, _)
/-- Window 1: a weight block moves with the tile's column (its rows are the tile's features) and spans all 2048 columns. -/
theorem idx1 : ∀ t : Fin cfg0.N, win0_1.index t (0 : Fin 2) = t.val % 8 ∧ win0_1.index t (1 : Fin 2) = 0 :=
  (by decide +kernel : ∀ t : Fin grid0.N, _)
/-- Window 2: a weight block moves with the tile's column (its rows are the tile's features) and spans all 2048 columns. -/
theorem idx2 : ∀ t : Fin cfg0.N, win0_2.index t (0 : Fin 2) = t.val % 8 ∧ win0_2.index t (1 : Fin 2) = 0 :=
  (by decide +kernel : ∀ t : Fin grid0.N, _)
/-- Window 3: a weight block moves with the tile's column (its rows are the tile's features) and spans all 2048 columns. -/
theorem idx3 : ∀ t : Fin cfg0.N, win0_3.index t (0 : Fin 2) = t.val % 8 ∧ win0_3.index t (1 : Fin 2) = 0 :=
  (by decide +kernel : ∀ t : Fin grid0.N, _)
/-- Window 4: a weight block moves with the tile's column (its rows are the tile's features) and spans all 2048 columns. -/
theorem idx4 : ∀ t : Fin cfg0.N, win0_4.index t (0 : Fin 2) = t.val % 8 ∧ win0_4.index t (1 : Fin 2) = 0 :=
  (by decide +kernel : ∀ t : Fin grid0.N, _)
/-- Window 5: a bias block is the one row, at the tile's column block. -/
theorem idx5 : ∀ t : Fin cfg0.N, win0_5.index t (0 : Fin 2) = 0 ∧ win0_5.index t (1 : Fin 2) = t.val % 8 :=
  (by decide +kernel : ∀ t : Fin grid0.N, _)
/-- Window 6: a bias block is the one row, at the tile's column block. -/
theorem idx6 : ∀ t : Fin cfg0.N, win0_6.index t (0 : Fin 2) = 0 ∧ win0_6.index t (1 : Fin 2) = t.val % 8 :=
  (by decide +kernel : ∀ t : Fin grid0.N, _)
/-- Window 7: a bias block is the one row, at the tile's column block. -/
theorem idx7 : ∀ t : Fin cfg0.N, win0_7.index t (0 : Fin 2) = 0 ∧ win0_7.index t (1 : Fin 2) = t.val % 8 :=
  (by decide +kernel : ∀ t : Fin grid0.N, _)
/-- Window 8: a bias block is the one row, at the tile's column block. -/
theorem idx8 : ∀ t : Fin cfg0.N, win0_8.index t (0 : Fin 2) = 0 ∧ win0_8.index t (1 : Fin 2) = t.val % 8 :=
  (by decide +kernel : ∀ t : Fin grid0.N, _)
/-- Window 9: the real half's block is the tile itself. -/
theorem idx9 : ∀ t : Fin cfg0.N, win0_9.index t (0 : Fin 2) = t.val / 8 ∧ win0_9.index t (1 : Fin 2) = t.val % 8 :=
  (by decide +kernel : ∀ t : Fin grid0.N, _)
/-- Window 10: the imaginary half's block is the tile moved 8 column blocks (2048 columns) to the right. -/
theorem idx10 : ∀ t : Fin cfg0.N, win0_10.index t (0 : Fin 2) = t.val / 8 ∧ win0_10.index t (1 : Fin 2) = 8 + t.val % 8 :=
  (by decide +kernel : ∀ t : Fin grid0.N, _)
/-- Window 11: an output block is the tile itself. -/
theorem idx11 : ∀ t : Fin cfg0.N, win0_11.index t (0 : Fin 2) = t.val / 8 ∧ win0_11.index t (1 : Fin 2) = t.val % 8 :=
  (by decide +kernel : ∀ t : Fin grid0.N, _)
/-- Window 12: an output block is the tile itself. -/
theorem idx12 : ∀ t : Fin cfg0.N, win0_12.index t (0 : Fin 2) = t.val / 8 ∧ win0_12.index t (1 : Fin 2) = t.val % 8 :=
  (by decide +kernel : ∀ t : Fin grid0.N, _)

/-! ## Each input block as entries of its array -/

/-- Row `p` of the batch block at point `t` is row `1024 (t / 8) + p` of the batch. -/
theorem blk0 (c : Dev nD) (t : Fin cfg0.N) (p : Fin 1024) (k : Fin 2048) :
    (Hand.iblk V c 0 t : Vec Ideal S1024x2048 .bf16) (ix2 p k)
      = (V c main_v0 : S8192x2048.Idx → EReal) (ix2 (⟨1024 * (tileRow t).val + p.val, by have := (tileRow t).isLt; omega⟩ : Fin 8192) k) := by
  obtain ⟨e0, e1⟩ := idx0 t
  unfold Hand.iblk
  rw [View.read_apply]
  show (V c main_v0 : S8192x2048.Idx → EReal) _ = (V c main_v0 : S8192x2048.Idx → EReal) _
  refine congrArg (V c main_v0 : S8192x2048.Idx → EReal) (funext fun a => Fin.ext ?_)
  match a with
  | ⟨0, _⟩ => show win0_0.index t (0 : Fin 2) * 1024 + 1 * p.val = 1024 * (t.val / 8) + p.val; rw [e0]; omega
  | ⟨1, _⟩ => show win0_0.index t (1 : Fin 2) * 2048 + 1 * k.val = k.val; rw [e1]; omega

/-- Row `q` of weight block 1 at point `t` is row `256 (t % 8) + q` of its matrix: feature `q` of the tile. -/
theorem blk1 (c : Dev nD) (t : Fin cfg0.N) (q : Fin 256) (k : Fin 2048) :
    (Hand.iblk V c 1 t : Vec Ideal S256x2048 .bf16) (ix2 q k)
      = (V c main_v1 : S2048x2048.Idx → EReal) (ix2 (⟨256 * (tileCol t).val + q.val, by have := (tileCol t).isLt; omega⟩ : Fin 2048) k) := by
  obtain ⟨e0, e1⟩ := idx1 t
  unfold Hand.iblk
  rw [View.read_apply]
  show (V c main_v1 : S2048x2048.Idx → EReal) _ = (V c main_v1 : S2048x2048.Idx → EReal) _
  refine congrArg (V c main_v1 : S2048x2048.Idx → EReal) (funext fun a => Fin.ext ?_)
  match a with
  | ⟨0, _⟩ => show win0_1.index t (0 : Fin 2) * 256 + 1 * q.val = 256 * (t.val % 8) + q.val; rw [e0]; omega
  | ⟨1, _⟩ => show win0_1.index t (1 : Fin 2) * 2048 + 1 * k.val = k.val; rw [e1]; omega

/-- Row `q` of weight block 2 at point `t` is row `256 (t % 8) + q` of its matrix: feature `q` of the tile. -/
theorem blk2 (c : Dev nD) (t : Fin cfg0.N) (q : Fin 256) (k : Fin 2048) :
    (Hand.iblk V c 2 t : Vec Ideal S256x2048 .bf16) (ix2 q k)
      = (V c main_v2 : S2048x2048.Idx → EReal) (ix2 (⟨256 * (tileCol t).val + q.val, by have := (tileCol t).isLt; omega⟩ : Fin 2048) k) := by
  obtain ⟨e0, e1⟩ := idx2 t
  unfold Hand.iblk
  rw [View.read_apply]
  show (V c main_v2 : S2048x2048.Idx → EReal) _ = (V c main_v2 : S2048x2048.Idx → EReal) _
  refine congrArg (V c main_v2 : S2048x2048.Idx → EReal) (funext fun a => Fin.ext ?_)
  match a with
  | ⟨0, _⟩ => show win0_2.index t (0 : Fin 2) * 256 + 1 * q.val = 256 * (t.val % 8) + q.val; rw [e0]; omega
  | ⟨1, _⟩ => show win0_2.index t (1 : Fin 2) * 2048 + 1 * k.val = k.val; rw [e1]; omega

/-- Row `q` of weight block 3 at point `t` is row `256 (t % 8) + q` of its matrix: feature `q` of the tile. -/
theorem blk3 (c : Dev nD) (t : Fin cfg0.N) (q : Fin 256) (k : Fin 2048) :
    (Hand.iblk V c 3 t : Vec Ideal S256x2048 .bf16) (ix2 q k)
      = (V c main_v3 : S2048x2048.Idx → EReal) (ix2 (⟨256 * (tileCol t).val + q.val, by have := (tileCol t).isLt; omega⟩ : Fin 2048) k) := by
  obtain ⟨e0, e1⟩ := idx3 t
  unfold Hand.iblk
  rw [View.read_apply]
  show (V c main_v3 : S2048x2048.Idx → EReal) _ = (V c main_v3 : S2048x2048.Idx → EReal) _
  refine congrArg (V c main_v3 : S2048x2048.Idx → EReal) (funext fun a => Fin.ext ?_)
  match a with
  | ⟨0, _⟩ => show win0_3.index t (0 : Fin 2) * 256 + 1 * q.val = 256 * (t.val % 8) + q.val; rw [e0]; omega
  | ⟨1, _⟩ => show win0_3.index t (1 : Fin 2) * 2048 + 1 * k.val = k.val; rw [e1]; omega

/-- Row `q` of weight block 4 at point `t` is row `256 (t % 8) + q` of its matrix: feature `q` of the tile. -/
theorem blk4 (c : Dev nD) (t : Fin cfg0.N) (q : Fin 256) (k : Fin 2048) :
    (Hand.iblk V c 4 t : Vec Ideal S256x2048 .bf16) (ix2 q k)
      = (V c main_v4 : S2048x2048.Idx → EReal) (ix2 (⟨256 * (tileCol t).val + q.val, by have := (tileCol t).isLt; omega⟩ : Fin 2048) k) := by
  obtain ⟨e0, e1⟩ := idx4 t
  unfold Hand.iblk
  rw [View.read_apply]
  show (V c main_v4 : S2048x2048.Idx → EReal) _ = (V c main_v4 : S2048x2048.Idx → EReal) _
  refine congrArg (V c main_v4 : S2048x2048.Idx → EReal) (funext fun a => Fin.ext ?_)
  match a with
  | ⟨0, _⟩ => show win0_4.index t (0 : Fin 2) * 256 + 1 * q.val = 256 * (t.val % 8) + q.val; rw [e0]; omega
  | ⟨1, _⟩ => show win0_4.index t (1 : Fin 2) * 2048 + 1 * k.val = k.val; rw [e1]; omega

/-- Entry `q` of bias block 5 at point `t` is entry `256 (t % 8) + q` of its bias row. -/
theorem blk5 (c : Dev nD) (t : Fin cfg0.N) (q : Fin 256) :
    (Hand.iblk V c 5 t : Vec Ideal S1x256 .f32) (ix2 (0 : Fin 1) q)
      = (V c main_v5 : S1x2048.Idx → EReal) (ix2 (0 : Fin 1) (⟨256 * (tileCol t).val + q.val, by have := (tileCol t).isLt; omega⟩ : Fin 2048)) := by
  obtain ⟨e0, e1⟩ := idx5 t
  unfold Hand.iblk
  rw [View.read_apply]
  show (V c main_v5 : S1x2048.Idx → EReal) _ = (V c main_v5 : S1x2048.Idx → EReal) _
  refine congrArg (V c main_v5 : S1x2048.Idx → EReal) (funext fun a => Fin.ext ?_)
  match a with
  | ⟨0, _⟩ => show win0_5.index t (0 : Fin 2) * 1 + 1 * 0 = 0; omega
  | ⟨1, _⟩ => show win0_5.index t (1 : Fin 2) * 256 + 1 * q.val = 256 * (t.val % 8) + q.val; rw [e1]; omega

/-- Entry `q` of bias block 6 at point `t` is entry `256 (t % 8) + q` of its bias row. -/
theorem blk6 (c : Dev nD) (t : Fin cfg0.N) (q : Fin 256) :
    (Hand.iblk V c 6 t : Vec Ideal S1x256 .f32) (ix2 (0 : Fin 1) q)
      = (V c main_v6 : S1x2048.Idx → EReal) (ix2 (0 : Fin 1) (⟨256 * (tileCol t).val + q.val, by have := (tileCol t).isLt; omega⟩ : Fin 2048)) := by
  obtain ⟨e0, e1⟩ := idx6 t
  unfold Hand.iblk
  rw [View.read_apply]
  show (V c main_v6 : S1x2048.Idx → EReal) _ = (V c main_v6 : S1x2048.Idx → EReal) _
  refine congrArg (V c main_v6 : S1x2048.Idx → EReal) (funext fun a => Fin.ext ?_)
  match a with
  | ⟨0, _⟩ => show win0_6.index t (0 : Fin 2) * 1 + 1 * 0 = 0; omega
  | ⟨1, _⟩ => show win0_6.index t (1 : Fin 2) * 256 + 1 * q.val = 256 * (t.val % 8) + q.val; rw [e1]; omega

/-- Entry `q` of bias block 7 at point `t` is entry `256 (t % 8) + q` of its bias row. -/
theorem blk7 (c : Dev nD) (t : Fin cfg0.N) (q : Fin 256) :
    (Hand.iblk V c 7 t : Vec Ideal S1x256 .f32) (ix2 (0 : Fin 1) q)
      = (V c main_v7 : S1x2048.Idx → EReal) (ix2 (0 : Fin 1) (⟨256 * (tileCol t).val + q.val, by have := (tileCol t).isLt; omega⟩ : Fin 2048)) := by
  obtain ⟨e0, e1⟩ := idx7 t
  unfold Hand.iblk
  rw [View.read_apply]
  show (V c main_v7 : S1x2048.Idx → EReal) _ = (V c main_v7 : S1x2048.Idx → EReal) _
  refine congrArg (V c main_v7 : S1x2048.Idx → EReal) (funext fun a => Fin.ext ?_)
  match a with
  | ⟨0, _⟩ => show win0_7.index t (0 : Fin 2) * 1 + 1 * 0 = 0; omega
  | ⟨1, _⟩ => show win0_7.index t (1 : Fin 2) * 256 + 1 * q.val = 256 * (t.val % 8) + q.val; rw [e1]; omega

/-- Entry `q` of bias block 8 at point `t` is entry `256 (t % 8) + q` of its bias row. -/
theorem blk8 (c : Dev nD) (t : Fin cfg0.N) (q : Fin 256) :
    (Hand.iblk V c 8 t : Vec Ideal S1x256 .f32) (ix2 (0 : Fin 1) q)
      = (V c main_v8 : S1x2048.Idx → EReal) (ix2 (0 : Fin 1) (⟨256 * (tileCol t).val + q.val, by have := (tileCol t).isLt; omega⟩ : Fin 2048)) := by
  obtain ⟨e0, e1⟩ := idx8 t
  unfold Hand.iblk
  rw [View.read_apply]
  show (V c main_v8 : S1x2048.Idx → EReal) _ = (V c main_v8 : S1x2048.Idx → EReal) _
  refine congrArg (V c main_v8 : S1x2048.Idx → EReal) (funext fun a => Fin.ext ?_)
  match a with
  | ⟨0, _⟩ => show win0_8.index t (0 : Fin 2) * 1 + 1 * 0 = 0; omega
  | ⟨1, _⟩ => show win0_8.index t (1 : Fin 2) * 256 + 1 * q.val = 256 * (t.val % 8) + q.val; rw [e1]; omega

/-- The real half's block at point `t`: entry (p, q) is the state at row `1024 (t / 8) + p`, column `256 (t % 8) + q`. -/
theorem blk9 (c : Dev nD) (t : Fin cfg0.N) (p : Fin 1024) (q : Fin 256) :
    (Hand.iblk V c 9 t : Vec Ideal S1024x256 .f32) (ix2 p q)
      = (V c main_arg1 : S8192x4096.Idx → EReal) (ix2 (⟨1024 * (tileRow t).val + p.val, by have := (tileRow t).isLt; omega⟩ : Fin 8192) (⟨256 * (tileCol t).val + q.val, by have := (tileCol t).isLt; omega⟩ : Fin 4096)) := by
  obtain ⟨e0, e1⟩ := idx9 t
  unfold Hand.iblk
  rw [View.read_apply]
  show (V c main_arg1 : S8192x4096.Idx → EReal) _ = (V c main_arg1 : S8192x4096.Idx → EReal) _
  refine congrArg (V c main_arg1 : S8192x4096.Idx → EReal) (funext fun a => Fin.ext ?_)
  match a with
  | ⟨0, _⟩ => show win0_9.index t (0 : Fin 2) * 1024 + 1 * p.val = 1024 * (t.val / 8) + p.val; rw [e0]; omega
  | ⟨1, _⟩ => show win0_9.index t (1 : Fin 2) * 256 + 1 * q.val = 256 * (t.val % 8) + q.val; rw [e1]; omega

/-- The imaginary half's block at point `t`: entry (p, q) is the state at row `1024 (t / 8) + p`, column `2048 + (256 (t % 8) + q)` (8 column blocks of 256 are the 2048 columns of the real half). -/
theorem blk10 (c : Dev nD) (t : Fin cfg0.N) (p : Fin 1024) (q : Fin 256) :
    (Hand.iblk V c 10 t : Vec Ideal S1024x256 .f32) (ix2 p q)
      = (V c main_arg1 : S8192x4096.Idx → EReal) (ix2 (⟨1024 * (tileRow t).val + p.val, by have := (tileRow t).isLt; omega⟩ : Fin 8192) (⟨2048 + (256 * (tileCol t).val + q.val), by have := (tileCol t).isLt; omega⟩ : Fin 4096)) := by
  obtain ⟨e0, e1⟩ := idx10 t
  unfold Hand.iblk
  rw [View.read_apply]
  show (V c main_arg1 : S8192x4096.Idx → EReal) _ = (V c main_arg1 : S8192x4096.Idx → EReal) _
  refine congrArg (V c main_arg1 : S8192x4096.Idx → EReal) (funext fun a => Fin.ext ?_)
  match a with
  | ⟨0, _⟩ => show win0_10.index t (0 : Fin 2) * 1024 + 1 * p.val = 1024 * (t.val / 8) + p.val; rw [e0]; omega
  | ⟨1, _⟩ => show win0_10.index t (1 : Fin 2) * 256 + 1 * q.val = 2048 + (256 * (t.val % 8) + q.val); rw [e1]; omega

/-! ## The projections of the blocks are the projections of the arrays -/

/-- A projection of the tile (i, j)'s blocks at (p, q) is the projection of the arrays at row `1024 i + p` and feature
    `256 j + q`: the same sum over the 2048 input columns, term by term, and the same bias entry. -/
theorem blockLin_eq (e : Cell.SE.Idx → EReal) (W : Cell.SW.Idx → EReal) (b : FVec Ideal S1x2048 .f32)
    (xe : FVec Ideal S1024x2048 .bf16) (w : FVec Ideal S256x2048 .bf16) (bb : FVec Ideal S1x256 .f32) (i j : Fin 8)
    (hxe : ∀ (p : Fin 1024) (k : Fin 2048), xe (ix2 p k) = e (ix2 (⟨1024 * i.val + p.val, by omega⟩ : Fin 8192) k))
    (hw : ∀ (q : Fin 256) (k : Fin 2048), w (ix2 q k) = W (ix2 (⟨256 * j.val + q.val, by omega⟩ : Fin 2048) k))
    (hb : ∀ q : Fin 256, bb (ix2 (0 : Fin 1) q) = b (ix2 (0 : Fin 1) (⟨256 * j.val + q.val, by omega⟩ : Fin 2048)))
    (p : Fin 1024) (q : Fin 256) :
    PayValue.blockLin xe w bb p q
      = Cell.lin e W (row b) ⟨1024 * i.val + p.val, by omega⟩ ⟨256 * j.val + q.val, by omega⟩ := by
  show (∑ k : Fin 2048, xe (ix2 p k) * w (ix2 q k)) + bb (ix2 (0 : Fin 1) q)
    = (∑ k : Fin 2048, e (ix2 (⟨1024 * i.val + p.val, by omega⟩ : Fin 8192) k) * W (ix2 (⟨256 * j.val + q.val, by omega⟩ : Fin 2048) k))
      + b (ix2 (0 : Fin 1) (⟨256 * j.val + q.val, by omega⟩ : Fin 2048))
  rw [hb q]
  congr 1
  exact Finset.sum_congr rfl fun k _ => by rw [hxe p k, hw q k]

/-- What a point leaves in the real half's buffer, at (p, q), in terms of the projections of its blocks. -/
theorem outRe_apply (xe : Vec Ideal S1024x2048 .bf16) (wP wT wR wI : Vec Ideal S256x2048 .bf16)
    (bp bt br bi : Vec Ideal S1x256 .f32) (hre him : Vec Ideal S1024x256 .f32) (p : Fin 1024) (q : Fin 256) :
    Hand.outRe (F := Ideal) xe wP wT wR wI bp bt br bi hre him (ix2 p q)
      = (Cell.one - Cell.gate (PayValue.blockLin xe wP bp p q)) * (Ideal.cos (PayValue.blockLin xe wT bt p q) * hre (ix2 p q) - Ideal.sin (PayValue.blockLin xe wT bt p q) * him (ix2 p q))
        + Cell.gate (PayValue.blockLin xe wP bp p q) * PayValue.blockLin xe wR br p q := by
  unfold Hand.outRe Hand.rE Hand.rW Hand.rB Hand.rH
  rw [View.canon_unit_zero hz]
  simp only [View.ld_unit_zero (S := S1024x2048) hz, View.ld_unit_zero (S := S256x2048) hz,
    View.ld_unit_zero (S := S1x256) hz, View.ld_unit_zero (S := S1024x256) hz]
  exact PayValue.pay_re xe wP wT wR wI bp bt br bi hre him p q

/-- When the blocks are the tile (i, j)'s entries of the arrays, the real half's buffer at (p, q) is the cell's
    real half at row `1024 i + p`, feature `256 j + q`. -/
theorem cell_re_of_blocks (e : Cell.SE.Idx → EReal) (h : Cell.SH.Idx → EReal) (Wp Wt Wr : Cell.SW.Idx → EReal)
    (bP bT bR : FVec Ideal S1x2048 .f32)
    (xe : FVec Ideal S1024x2048 .bf16) (wp wt wr wi : FVec Ideal S256x2048 .bf16) (cp ct cr ci : FVec Ideal S1x256 .f32)
    (hre him : FVec Ideal S1024x256 .f32) (i j : Fin 8)
    (hxe : ∀ (p : Fin 1024) (k : Fin 2048), xe (ix2 p k) = e (ix2 (⟨1024 * i.val + p.val, by omega⟩ : Fin 8192) k))
    (hwp : ∀ (q : Fin 256) (k : Fin 2048), wp (ix2 q k) = Wp (ix2 (⟨256 * j.val + q.val, by omega⟩ : Fin 2048) k))
    (hwt : ∀ (q : Fin 256) (k : Fin 2048), wt (ix2 q k) = Wt (ix2 (⟨256 * j.val + q.val, by omega⟩ : Fin 2048) k))
    (hwr : ∀ (q : Fin 256) (k : Fin 2048), wr (ix2 q k) = Wr (ix2 (⟨256 * j.val + q.val, by omega⟩ : Fin 2048) k))
    (hcp : ∀ q : Fin 256, cp (ix2 (0 : Fin 1) q) = bP (ix2 (0 : Fin 1) (⟨256 * j.val + q.val, by omega⟩ : Fin 2048)))
    (hct : ∀ q : Fin 256, ct (ix2 (0 : Fin 1) q) = bT (ix2 (0 : Fin 1) (⟨256 * j.val + q.val, by omega⟩ : Fin 2048)))
    (hcr : ∀ q : Fin 256, cr (ix2 (0 : Fin 1) q) = bR (ix2 (0 : Fin 1) (⟨256 * j.val + q.val, by omega⟩ : Fin 2048)))
    (hhre : ∀ (p : Fin 1024) (q : Fin 256), hre (ix2 p q)
      = h (ix2 (⟨1024 * i.val + p.val, by omega⟩ : Fin 8192) (⟨256 * j.val + q.val, by omega⟩ : Fin 4096)))
    (hhim : ∀ (p : Fin 1024) (q : Fin 256), him (ix2 p q)
      = h (ix2 (⟨1024 * i.val + p.val, by omega⟩ : Fin 8192) (⟨2048 + (256 * j.val + q.val), by omega⟩ : Fin 4096)))
    (p : Fin 1024) (q : Fin 256) :
    Hand.outRe (F := Ideal) xe wp wt wr wi cp ct cr ci hre him (ix2 p q)
      = Cell.re e h Wp (row bP) Wt (row bT) Wr (row bR) ⟨1024 * i.val + p.val, by omega⟩ ⟨256 * j.val + q.val, by omega⟩ := by
  rw [outRe_apply xe wp wt wr wi cp ct cr ci hre him p q,
    blockLin_eq e Wp bP xe wp cp i j hxe hwp hcp p q, blockLin_eq e Wt bT xe wt ct i j hxe hwt hct p q,
    blockLin_eq e Wr bR xe wr cr i j hxe hwr hcr p q, hhre p q, hhim p q]
  rfl

/-- The same at any entry `y` of the buffer and any entry `k` of the array with `k = (1024 i + y₀, 256 j + y₁)`. -/
theorem point_re (e : Cell.SE.Idx → EReal) (h : Cell.SH.Idx → EReal) (Wp Wt Wr : Cell.SW.Idx → EReal)
    (bP bT bR : FVec Ideal S1x2048 .f32)
    (xe : FVec Ideal S1024x2048 .bf16) (wp wt wr wi : FVec Ideal S256x2048 .bf16) (cp ct cr ci : FVec Ideal S1x256 .f32)
    (hre him : FVec Ideal S1024x256 .f32) (i j : Fin 8)
    (hxe : ∀ (p : Fin 1024) (k : Fin 2048), xe (ix2 p k) = e (ix2 (⟨1024 * i.val + p.val, by omega⟩ : Fin 8192) k))
    (hwp : ∀ (q : Fin 256) (k : Fin 2048), wp (ix2 q k) = Wp (ix2 (⟨256 * j.val + q.val, by omega⟩ : Fin 2048) k))
    (hwt : ∀ (q : Fin 256) (k : Fin 2048), wt (ix2 q k) = Wt (ix2 (⟨256 * j.val + q.val, by omega⟩ : Fin 2048) k))
    (hwr : ∀ (q : Fin 256) (k : Fin 2048), wr (ix2 q k) = Wr (ix2 (⟨256 * j.val + q.val, by omega⟩ : Fin 2048) k))
    (hcp : ∀ q : Fin 256, cp (ix2 (0 : Fin 1) q) = bP (ix2 (0 : Fin 1) (⟨256 * j.val + q.val, by omega⟩ : Fin 2048)))
    (hct : ∀ q : Fin 256, ct (ix2 (0 : Fin 1) q) = bT (ix2 (0 : Fin 1) (⟨256 * j.val + q.val, by omega⟩ : Fin 2048)))
    (hcr : ∀ q : Fin 256, cr (ix2 (0 : Fin 1) q) = bR (ix2 (0 : Fin 1) (⟨256 * j.val + q.val, by omega⟩ : Fin 2048)))
    (hhre : ∀ (p : Fin 1024) (q : Fin 256), hre (ix2 p q)
      = h (ix2 (⟨1024 * i.val + p.val, by omega⟩ : Fin 8192) (⟨256 * j.val + q.val, by omega⟩ : Fin 4096)))
    (hhim : ∀ (p : Fin 1024) (q : Fin 256), him (ix2 p q)
      = h (ix2 (⟨1024 * i.val + p.val, by omega⟩ : Fin 8192) (⟨2048 + (256 * j.val + q.val), by omega⟩ : Fin 4096)))
    (y : S1024x256.Idx) (k : Cell.SE.Idx)
    (hk0 : (k 0).val = 1024 * i.val + (y 0).val) (hk1 : (k 1).val = 256 * j.val + (y 1).val) :
    Hand.outRe (F := Ideal) xe wp wt wr wi cp ct cr ci hre him y = Cell.reArr e h Wp (row bP) Wt (row bT) Wr (row bR) k := by
  obtain ⟨p, q, rfl⟩ : ∃ (p : Fin 1024) (q : Fin 256), y = ix2 p q := ⟨y 0, y 1, eq_ix2 y⟩
  have hb0 : 1024 * i.val + p.val < 8192 := by omega
  have hb1 : 256 * j.val + q.val < 2048 := by omega
  have e0 : k 0 = (⟨1024 * i.val + p.val, hb0⟩ : Fin 8192) := Fin.ext hk0
  have e1 : k 1 = (⟨256 * j.val + q.val, hb1⟩ : Fin 2048) := Fin.ext hk1
  exact (cell_re_of_blocks e h Wp Wt Wr bP bT bR xe wp wt wr wi cp ct cr ci hre him i j hxe hwp hwt hwr hcp hct hcr hhre hhim p q).trans
    (congrArg₂ (Cell.re e h Wp (row bP) Wt (row bT) Wr (row bR)) e0 e1).symm

/-- What a point leaves in the imaginary half's buffer, at (p, q), in terms of the projections of its blocks. -/
theorem outIm_apply (xe : Vec Ideal S1024x2048 .bf16) (wP wT wR wI : Vec Ideal S256x2048 .bf16)
    (bp bt br bi : Vec Ideal S1x256 .f32) (hre him : Vec Ideal S1024x256 .f32) (p : Fin 1024) (q : Fin 256) :
    Hand.outIm (F := Ideal) xe wP wT wR wI bp bt br bi hre him (ix2 p q)
      = (Cell.one - Cell.gate (PayValue.blockLin xe wP bp p q)) * (Ideal.sin (PayValue.blockLin xe wT bt p q) * hre (ix2 p q) + Ideal.cos (PayValue.blockLin xe wT bt p q) * him (ix2 p q))
        + Cell.gate (PayValue.blockLin xe wP bp p q) * PayValue.blockLin xe wI bi p q := by
  unfold Hand.outIm Hand.rE Hand.rW Hand.rB Hand.rH
  rw [View.canon_unit_zero hz]
  simp only [View.ld_unit_zero (S := S1024x2048) hz, View.ld_unit_zero (S := S256x2048) hz,
    View.ld_unit_zero (S := S1x256) hz, View.ld_unit_zero (S := S1024x256) hz]
  exact PayValue.pay_im xe wP wT wR wI bp bt br bi hre him p q

/-- When the blocks are the tile (i, j)'s entries of the arrays, the imaginary half's buffer at (p, q) is the cell's
    imaginary half at row `1024 i + p`, feature `256 j + q`. -/
theorem cell_im_of_blocks (e : Cell.SE.Idx → EReal) (h : Cell.SH.Idx → EReal) (Wp Wt Wi : Cell.SW.Idx → EReal)
    (bP bT bI : FVec Ideal S1x2048 .f32)
    (xe : FVec Ideal S1024x2048 .bf16) (wp wt wr wi : FVec Ideal S256x2048 .bf16) (cp ct cr ci : FVec Ideal S1x256 .f32)
    (hre him : FVec Ideal S1024x256 .f32) (i j : Fin 8)
    (hxe : ∀ (p : Fin 1024) (k : Fin 2048), xe (ix2 p k) = e (ix2 (⟨1024 * i.val + p.val, by omega⟩ : Fin 8192) k))
    (hwp : ∀ (q : Fin 256) (k : Fin 2048), wp (ix2 q k) = Wp (ix2 (⟨256 * j.val + q.val, by omega⟩ : Fin 2048) k))
    (hwt : ∀ (q : Fin 256) (k : Fin 2048), wt (ix2 q k) = Wt (ix2 (⟨256 * j.val + q.val, by omega⟩ : Fin 2048) k))
    (hwi : ∀ (q : Fin 256) (k : Fin 2048), wi (ix2 q k) = Wi (ix2 (⟨256 * j.val + q.val, by omega⟩ : Fin 2048) k))
    (hcp : ∀ q : Fin 256, cp (ix2 (0 : Fin 1) q) = bP (ix2 (0 : Fin 1) (⟨256 * j.val + q.val, by omega⟩ : Fin 2048)))
    (hct : ∀ q : Fin 256, ct (ix2 (0 : Fin 1) q) = bT (ix2 (0 : Fin 1) (⟨256 * j.val + q.val, by omega⟩ : Fin 2048)))
    (hci : ∀ q : Fin 256, ci (ix2 (0 : Fin 1) q) = bI (ix2 (0 : Fin 1) (⟨256 * j.val + q.val, by omega⟩ : Fin 2048)))
    (hhre : ∀ (p : Fin 1024) (q : Fin 256), hre (ix2 p q)
      = h (ix2 (⟨1024 * i.val + p.val, by omega⟩ : Fin 8192) (⟨256 * j.val + q.val, by omega⟩ : Fin 4096)))
    (hhim : ∀ (p : Fin 1024) (q : Fin 256), him (ix2 p q)
      = h (ix2 (⟨1024 * i.val + p.val, by omega⟩ : Fin 8192) (⟨2048 + (256 * j.val + q.val), by omega⟩ : Fin 4096)))
    (p : Fin 1024) (q : Fin 256) :
    Hand.outIm (F := Ideal) xe wp wt wr wi cp ct cr ci hre him (ix2 p q)
      = Cell.im e h Wp (row bP) Wt (row bT) Wi (row bI) ⟨1024 * i.val + p.val, by omega⟩ ⟨256 * j.val + q.val, by omega⟩ := by
  rw [outIm_apply xe wp wt wr wi cp ct cr ci hre him p q,
    blockLin_eq e Wp bP xe wp cp i j hxe hwp hcp p q, blockLin_eq e Wt bT xe wt ct i j hxe hwt hct p q,
    blockLin_eq e Wi bI xe wi ci i j hxe hwi hci p q, hhre p q, hhim p q]
  rfl

/-- The same at any entry `y` of the buffer and any entry `k` of the array with `k = (1024 i + y₀, 256 j + y₁)`. -/
theorem point_im (e : Cell.SE.Idx → EReal) (h : Cell.SH.Idx → EReal) (Wp Wt Wi : Cell.SW.Idx → EReal)
    (bP bT bI : FVec Ideal S1x2048 .f32)
    (xe : FVec Ideal S1024x2048 .bf16) (wp wt wr wi : FVec Ideal S256x2048 .bf16) (cp ct cr ci : FVec Ideal S1x256 .f32)
    (hre him : FVec Ideal S1024x256 .f32) (i j : Fin 8)
    (hxe : ∀ (p : Fin 1024) (k : Fin 2048), xe (ix2 p k) = e (ix2 (⟨1024 * i.val + p.val, by omega⟩ : Fin 8192) k))
    (hwp : ∀ (q : Fin 256) (k : Fin 2048), wp (ix2 q k) = Wp (ix2 (⟨256 * j.val + q.val, by omega⟩ : Fin 2048) k))
    (hwt : ∀ (q : Fin 256) (k : Fin 2048), wt (ix2 q k) = Wt (ix2 (⟨256 * j.val + q.val, by omega⟩ : Fin 2048) k))
    (hwi : ∀ (q : Fin 256) (k : Fin 2048), wi (ix2 q k) = Wi (ix2 (⟨256 * j.val + q.val, by omega⟩ : Fin 2048) k))
    (hcp : ∀ q : Fin 256, cp (ix2 (0 : Fin 1) q) = bP (ix2 (0 : Fin 1) (⟨256 * j.val + q.val, by omega⟩ : Fin 2048)))
    (hct : ∀ q : Fin 256, ct (ix2 (0 : Fin 1) q) = bT (ix2 (0 : Fin 1) (⟨256 * j.val + q.val, by omega⟩ : Fin 2048)))
    (hci : ∀ q : Fin 256, ci (ix2 (0 : Fin 1) q) = bI (ix2 (0 : Fin 1) (⟨256 * j.val + q.val, by omega⟩ : Fin 2048)))
    (hhre : ∀ (p : Fin 1024) (q : Fin 256), hre (ix2 p q)
      = h (ix2 (⟨1024 * i.val + p.val, by omega⟩ : Fin 8192) (⟨256 * j.val + q.val, by omega⟩ : Fin 4096)))
    (hhim : ∀ (p : Fin 1024) (q : Fin 256), him (ix2 p q)
      = h (ix2 (⟨1024 * i.val + p.val, by omega⟩ : Fin 8192) (⟨2048 + (256 * j.val + q.val), by omega⟩ : Fin 4096)))
    (y : S1024x256.Idx) (k : Cell.SE.Idx)
    (hk0 : (k 0).val = 1024 * i.val + (y 0).val) (hk1 : (k 1).val = 256 * j.val + (y 1).val) :
    Hand.outIm (F := Ideal) xe wp wt wr wi cp ct cr ci hre him y = Cell.imArr e h Wp (row bP) Wt (row bT) Wi (row bI) k := by
  obtain ⟨p, q, rfl⟩ : ∃ (p : Fin 1024) (q : Fin 256), y = ix2 p q := ⟨y 0, y 1, eq_ix2 y⟩
  have hb0 : 1024 * i.val + p.val < 8192 := by omega
  have hb1 : 256 * j.val + q.val < 2048 := by omega
  have e0 : k 0 = (⟨1024 * i.val + p.val, hb0⟩ : Fin 8192) := Fin.ext hk0
  have e1 : k 1 = (⟨256 * j.val + q.val, hb1⟩ : Fin 2048) := Fin.ext hk1
  exact (cell_im_of_blocks e h Wp Wt Wi bP bT bI xe wp wt wr wi cp ct cr ci hre him i j hxe hwp hwt hwi hcp hct hci hhre hhim p q).trans
    (congrArg₂ (Cell.im e h Wp (row bP) Wt (row bT) Wi (row bI)) e0 e1).symm

/-! ## The real half: what a point writes back, the cover, the array -/

/-- What point `t` writes back to the real half's array is the tile `t` of `Cell.reArr` of the arrays. -/
theorem flushed_re (c : Dev nD) (t : Fin cfg0.N) :
    (Hand.dat0 V c).flushed 11 t = ((cfg0.win 11).blk t).view.read (Elt Ideal)
      (Cell.reArr (V c main_v0) (V c main_arg1) (V c main_v1) (row (V c main_v5)) (V c main_v2) (row (V c main_v6)) (V c main_v3) (row (V c main_v7))) := by
  obtain ⟨e0, e1⟩ := idx11 t
  show (cfg0.win 11).cut (grid0.coords t) ((Hand.dat0 V c).after 11 t) = _
  rw [Hand.after11]
  funext y
  show Hand.outRe (F := Ideal) _ _ _ _ _ _ _ _ _ _ _ _ = Cell.reArr _ _ _ _ _ _ _ _ (((cfg0.win 11).blk t).view.emb y)
  refine point_re (V c main_v0) (V c main_arg1) (V c main_v1) (V c main_v2) (V c main_v3) (V c main_v5) (V c main_v6) (V c main_v7)
    (Hand.iblk V c 0 t) (Hand.iblk V c 1 t) (Hand.iblk V c 2 t) (Hand.iblk V c 3 t) (Hand.iblk V c 4 t)
    (Hand.iblk V c 5 t) (Hand.iblk V c 6 t) (Hand.iblk V c 7 t) (Hand.iblk V c 8 t) (Hand.iblk V c 9 t) (Hand.iblk V c 10 t)
    (tileRow t) (tileCol t) (blk0 V c t) (blk1 V c t) (blk2 V c t) (blk3 V c t) (blk5 V c t) (blk6 V c t) (blk7 V c t) (blk9 V c t) (blk10 V c t) _ _ ?_ ?_
  · show win0_11.index t (0 : Fin 2) * 1024 + 1 * (y 0).val = 1024 * (t.val / 8) + (y 0).val
    rw [e0]; omega
  · show win0_11.index t (1 : Fin 2) * 256 + 1 * (y 1).val = 256 * (t.val % 8) + (y 1).val
    rw [e1]; omega

/-- An entry of the array is in point `t`'s tile iff each coordinate is in the tile's range on its axis. -/
theorem mem_blk11 (t : Fin cfg0.N) (i : S8192x2048.Idx) :
    i ∈ ((cfg0.win 11).blk t).view.set ↔ ∀ a : Fin 2, win0_11.index t a * S1024x256.size a ≤ (i a).val
      ∧ (i a).val < win0_11.index t a * S1024x256.size a + S1024x256.size a := by
  show i ∈ ((View.whole main_v9_0).slice (win0_11.rect t)).set ↔ _
  rw [View.set_slice_whole, Rect.mem_set_unit]
  exact Iff.rfl

/-- The tiles cover the array: entry (r, c) is in the tile of the point `8 (r / 1024) + c / 256`. -/
theorem cover11 (i : S8192x2048.Idx) :
    ∃ t : Fin cfg0.N, (cfg0.win 11).flush t = true ∧ i ∈ ((cfg0.win 11).blk t).view.set := by
  have hN : cfg0.N = 64 := N_0
  have h0 : (i 0).val < 8192 := (i 0).isLt
  have h1 : (i 1).val < 2048 := (i 1).isLt
  obtain ⟨t, ht⟩ : ∃ t : Fin cfg0.N, t.val = 8 * ((i 0).val / 1024) + (i 1).val / 256 :=
    ⟨⟨8 * ((i 0).val / 1024) + (i 1).val / 256, by omega⟩, rfl⟩
  obtain ⟨e0, e1⟩ := idx11 t
  refine ⟨t, flush0_11 t, ?_⟩
  rw [mem_blk11]
  intro a
  match a with
  | ⟨0, _⟩ =>
    show win0_11.index t (0 : Fin 2) * 1024 ≤ (i 0).val ∧ (i 0).val < win0_11.index t (0 : Fin 2) * 1024 + 1024
    rw [e0]; omega
  | ⟨1, _⟩ =>
    show win0_11.index t (1 : Fin 2) * 256 ≤ (i 1).val ∧ (i 1).val < win0_11.index t (1 : Fin 2) * 256 + 256
    rw [e1]; omega

/-- The real half's array after the last point is `Cell.reArr` of the arrays the region found. -/
theorem arr_re (c : Dev nD) : (Hand.dat0 V c).arrAt 11 cfg0.N
    = Cell.reArr (V c main_v0) (V c main_arg1) (V c main_v1) (row (V c main_v5)) (V c main_v2) (row (V c main_v6)) (V c main_v3) (row (V c main_v7)) :=
  (Hand.dat0 V c).arrAt_eq_of_cover 11
    (Cell.reArr (V c main_v0) (V c main_arg1) (V c main_v1) (row (V c main_v5)) (V c main_v2) (row (V c main_v6)) (V c main_v3) (row (V c main_v7)))
    (fun t _ => flushed_re V c t) (fun i => cover11 i)

/-! ## The imaginary half: what a point writes back, the cover, the array -/

/-- What point `t` writes back to the imaginary half's array is the tile `t` of `Cell.imArr` of the arrays. -/
theorem flushed_im (c : Dev nD) (t : Fin cfg0.N) :
    (Hand.dat0 V c).flushed 12 t = ((cfg0.win 12).blk t).view.read (Elt Ideal)
      (Cell.imArr (V c main_v0) (V c main_arg1) (V c main_v1) (row (V c main_v5)) (V c main_v2) (row (V c main_v6)) (V c main_v4) (row (V c main_v8))) := by
  obtain ⟨e0, e1⟩ := idx12 t
  show (cfg0.win 12).cut (grid0.coords t) ((Hand.dat0 V c).after 12 t) = _
  rw [Hand.after12]
  funext y
  show Hand.outIm (F := Ideal) _ _ _ _ _ _ _ _ _ _ _ _ = Cell.imArr _ _ _ _ _ _ _ _ (((cfg0.win 12).blk t).view.emb y)
  refine point_im (V c main_v0) (V c main_arg1) (V c main_v1) (V c main_v2) (V c main_v4) (V c main_v5) (V c main_v6) (V c main_v8)
    (Hand.iblk V c 0 t) (Hand.iblk V c 1 t) (Hand.iblk V c 2 t) (Hand.iblk V c 3 t) (Hand.iblk V c 4 t)
    (Hand.iblk V c 5 t) (Hand.iblk V c 6 t) (Hand.iblk V c 7 t) (Hand.iblk V c 8 t) (Hand.iblk V c 9 t) (Hand.iblk V c 10 t)
    (tileRow t) (tileCol t) (blk0 V c t) (blk1 V c t) (blk2 V c t) (blk4 V c t) (blk5 V c t) (blk6 V c t) (blk8 V c t) (blk9 V c t) (blk10 V c t) _ _ ?_ ?_
  · show win0_12.index t (0 : Fin 2) * 1024 + 1 * (y 0).val = 1024 * (t.val / 8) + (y 0).val
    rw [e0]; omega
  · show win0_12.index t (1 : Fin 2) * 256 + 1 * (y 1).val = 256 * (t.val % 8) + (y 1).val
    rw [e1]; omega

/-- An entry of the array is in point `t`'s tile iff each coordinate is in the tile's range on its axis. -/
theorem mem_blk12 (t : Fin cfg0.N) (i : S8192x2048.Idx) :
    i ∈ ((cfg0.win 12).blk t).view.set ↔ ∀ a : Fin 2, win0_12.index t a * S1024x256.size a ≤ (i a).val
      ∧ (i a).val < win0_12.index t a * S1024x256.size a + S1024x256.size a := by
  show i ∈ ((View.whole main_v9_1).slice (win0_12.rect t)).set ↔ _
  rw [View.set_slice_whole, Rect.mem_set_unit]
  exact Iff.rfl

/-- The tiles cover the array: entry (r, c) is in the tile of the point `8 (r / 1024) + c / 256`. -/
theorem cover12 (i : S8192x2048.Idx) :
    ∃ t : Fin cfg0.N, (cfg0.win 12).flush t = true ∧ i ∈ ((cfg0.win 12).blk t).view.set := by
  have hN : cfg0.N = 64 := N_0
  have h0 : (i 0).val < 8192 := (i 0).isLt
  have h1 : (i 1).val < 2048 := (i 1).isLt
  obtain ⟨t, ht⟩ : ∃ t : Fin cfg0.N, t.val = 8 * ((i 0).val / 1024) + (i 1).val / 256 :=
    ⟨⟨8 * ((i 0).val / 1024) + (i 1).val / 256, by omega⟩, rfl⟩
  obtain ⟨e0, e1⟩ := idx12 t
  refine ⟨t, flush0_12 t, ?_⟩
  rw [mem_blk12]
  intro a
  match a with
  | ⟨0, _⟩ =>
    show win0_12.index t (0 : Fin 2) * 1024 ≤ (i 0).val ∧ (i 0).val < win0_12.index t (0 : Fin 2) * 1024 + 1024
    rw [e0]; omega
  | ⟨1, _⟩ =>
    show win0_12.index t (1 : Fin 2) * 256 ≤ (i 1).val ∧ (i 1).val < win0_12.index t (1 : Fin 2) * 256 + 256
    rw [e1]; omega

/-- The imaginary half's array after the last point is `Cell.imArr` of the arrays the region found. -/
theorem arr_im (c : Dev nD) : (Hand.dat0 V c).arrAt 12 cfg0.N
    = Cell.imArr (V c main_v0) (V c main_arg1) (V c main_v1) (row (V c main_v5)) (V c main_v2) (row (V c main_v6)) (V c main_v4) (row (V c main_v8)) :=
  (Hand.dat0 V c).arrAt_eq_of_cover 12
    (Cell.imArr (V c main_v0) (V c main_arg1) (V c main_v1) (row (V c main_v5)) (V c main_v2) (row (V c main_v6)) (V c main_v4) (row (V c main_v8)))
    (fun t _ => flushed_im V c t) (fun i => cover12 i)

end Cert.KernelIdeal.HandValue

end
-- ==== Proof.KIOut.lean ====
/-
  The program's result array is the cell of `Spec` of the ten argument arrays, given what the two result arrays of the
  grid hold when it ends.

  Before the grid the program rounds the input batch and the four weight matrices to a narrower format — on the
  extended reals that changes nothing — and reshapes each bias vector `[2048]` to a row `[1, 2048]`, whose entry
  `(0, k)` is the vector's entry `k`; the state array is passed as it is. After the grid it lays the two result arrays
  side by side along the feature axis. The grid leaves in them the real and the imaginary half of the new state
  (`reArr`, `imArr`) of the prepared operands: these two facts are hypotheses here. Since the prepared operands are the
  arguments, and the bias rows read back are the biases, the two halves are those of the arguments, and the two
  halves side by side are `cell`.
-/
import proofs.«176958_j13529146982869_1_alg».proof.Proof.KIRun
import proofs.«176958_j13529146982869_1_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandOut

open Cert.KernelIdeal Cert.KernelIdeal.Gen
open Idealize.ShloMosaic Idealize.ShloMosaic.TcCoe Idealize.ShloMosaic.ValueIdx
open Idealize.SL.Sem

/-- A row `[1, 2048]` read back as a vector: entry `k` is the row's entry `(0, k)`. -/
def rowOf (b : FVec Ideal S1x2048 .f32) : Cert.Cell.SB.Idx → EReal := fun j => b (ix2 (0 : Fin 1) (j 0))

/-- A vector reshaped to a row and read back is the vector. -/
theorem rowOf_shapeCast (b : FVec Ideal S2048 .f32) (h : S2048.ShapeCasts S1x2048) :
    rowOf (shapeCast S1x2048 b h) = b := by
  funext j
  obtain ⟨k, rfl⟩ : ∃ k : Fin 2048, j = ix1 k := ⟨j 0, eq_ix1 j⟩
  exact shapeCast_a_1a_apply b h 0 k

/-- The two halves side by side are the cell. -/
theorem concat_cell (e : Cert.Cell.SE.Idx → EReal) (h : Cert.Cell.SH.Idx → EReal)
    (Wp : Cert.Cell.SW.Idx → EReal) (bp : Cert.Cell.SB.Idx → EReal) (Wt : Cert.Cell.SW.Idx → EReal) (bt : Cert.Cell.SB.Idx → EReal)
    (Wr : Cert.Cell.SW.Idx → EReal) (br : Cert.Cell.SB.Idx → EReal) (Wi : Cert.Cell.SW.Idx → EReal) (bi : Cert.Cell.SB.Idx → EReal)
    (hc : Shape.Concatenates [Cert.Cell.SE, Cert.Cell.SE] Cert.Cell.SH 1) :
    concatenate Cert.Cell.SH 1 [⟨Cert.Cell.SE, Cert.Cell.reArr e h Wp bp Wt bt Wr br⟩,
        ⟨Cert.Cell.SE, Cert.Cell.imArr e h Wp bp Wt bt Wi bi⟩] hc
      = Cert.Cell.cell e h Wp bp Wt bt Wr br Wi bi := by
  funext j
  obtain ⟨r, c', rfl⟩ : ∃ (r : Fin 8192) (c' : Fin 4096), j = ix2 r c' := ⟨j 0, j 1, eq_ix2 j⟩
  unfold Cert.Cell.cell
  by_cases hlt : c'.val < 2048
  · rw [dif_pos (show ((ix2 r c') 1).val < 2048 from hlt)]
    refine (concatenate_pair_apply_left (t := Cert.Cell.SH) (s₁ := Cert.Cell.SE) (s₂ := Cert.Cell.SE) (1 : Fin 2) _ _ hc
      (ix2 r c') rfl (ix2 r (⟨c'.val, hlt⟩ : Fin 2048)) (fun b => ?_)).trans rfl
    match b with
    | ⟨0, _⟩ => rfl
    | ⟨1, _⟩ => rfl
  · rw [dif_neg (show ¬((ix2 r c') 1).val < 2048 from hlt)]
    have hc' := c'.isLt
    refine (concatenate_pair_apply_right (t := Cert.Cell.SH) (s₁ := Cert.Cell.SE) (s₂ := Cert.Cell.SE) (1 : Fin 2) _ _ hc
      (ix2 r c') rfl rfl (ix2 r (⟨c'.val - 2048, by omega⟩ : Fin 2048)) (fun b hb => ?_) ?_).trans rfl
    · match b with
      | ⟨0, _⟩ => rfl
      | ⟨1, _⟩ => exact absurd rfl hb
    · show c'.val - 2048 + 2048 = c'.val
      omega

section

variable (m : (ℓ : Loc nD τ sig) → Buf (Elt Ideal) ℓ) (ρ : Dev nD → PrngReg) (c : Dev nD)

/-! ## The operands as the grid finds them -/

/-- The rounded input batch is the argument. -/
theorem V1_v0 : (Hand.V1 m ρ c main_v0 : Cert.Cell.SE.Idx → EReal) = (m ((c : Thread nD τ).loc main_arg0)) := by
  show StableHlo.after hostOps0 (Hand.W0 m ρ c) (Proc.devRef .tc main_v0) = _
  dsimp only [hostOps0]; after_results; rfl

/-- The rounded weight matrix is the argument. -/
theorem V1_v1 : (Hand.V1 m ρ c main_v1 : Cert.Cell.SW.Idx → EReal) = (m ((c : Thread nD τ).loc main_arg2)) := by
  show StableHlo.after hostOps0 (Hand.W0 m ρ c) (Proc.devRef .tc main_v1) = _
  dsimp only [hostOps0]; after_results; rfl

/-- The rounded weight matrix is the argument. -/
theorem V1_v2 : (Hand.V1 m ρ c main_v2 : Cert.Cell.SW.Idx → EReal) = (m ((c : Thread nD τ).loc main_arg4)) := by
  show StableHlo.after hostOps0 (Hand.W0 m ρ c) (Proc.devRef .tc main_v2) = _
  dsimp only [hostOps0]; after_results; rfl

/-- The rounded weight matrix is the argument. -/
theorem V1_v3 : (Hand.V1 m ρ c main_v3 : Cert.Cell.SW.Idx → EReal) = (m ((c : Thread nD τ).loc main_arg6)) := by
  show StableHlo.after hostOps0 (Hand.W0 m ρ c) (Proc.devRef .tc main_v3) = _
  dsimp only [hostOps0]; after_results; rfl

/-- The rounded weight matrix is the argument. -/
theorem V1_v4 : (Hand.V1 m ρ c main_v4 : Cert.Cell.SW.Idx → EReal) = (m ((c : Thread nD τ).loc main_arg8)) := by
  show StableHlo.after hostOps0 (Hand.W0 m ρ c) (Proc.devRef .tc main_v4) = _
  dsimp only [hostOps0]; after_results; rfl

/-- The state array is the argument: no operation before the grid writes it. -/
theorem V1_arg1 : (Hand.V1 m ρ c main_arg1 : Cert.Cell.SH.Idx → EReal) = (m ((c : Thread nD τ).loc main_arg1)) := by
  show StableHlo.after hostOps0 (Hand.W0 m ρ c) (Proc.devRef .tc main_arg1) = _
  dsimp only [hostOps0]; after_results

/-- The bias row read back is the argument. -/
theorem V1_v5 : rowOf (Hand.V1 m ρ c main_v5) = (m ((c : Thread nD τ).loc main_arg3)) := by
  have e : (Hand.V1 m ρ c main_v5 : S1x2048.Idx → EReal)
      = shapeCast S1x2048 (m ((c : Thread nD τ).loc main_arg3)) shapeCasts_S2048_S1x2048 := by
    show StableHlo.after hostOps0 (Hand.W0 m ρ c) (Proc.devRef .tc main_v5) = _
    dsimp only [hostOps0]; after_results; rfl
  rw [e]
  exact rowOf_shapeCast _ _

/-- The bias row read back is the argument. -/
theorem V1_v6 : rowOf (Hand.V1 m ρ c main_v6) = (m ((c : Thread nD τ).loc main_arg5)) := by
  have e : (Hand.V1 m ρ c main_v6 : S1x2048.Idx → EReal)
      = shapeCast S1x2048 (m ((c : Thread nD τ).loc main_arg5)) shapeCasts_S2048_S1x2048 := by
    show StableHlo.after hostOps0 (Hand.W0 m ρ c) (Proc.devRef .tc main_v6) = _
    dsimp only [hostOps0]; after_results; rfl
  rw [e]
  exact rowOf_shapeCast _ _

/-- The bias row read back is the argument. -/
theorem V1_v7 : rowOf (Hand.V1 m ρ c main_v7) = (m ((c : Thread nD τ).loc main_arg7)) := by
  have e : (Hand.V1 m ρ c main_v7 : S1x2048.Idx → EReal)
      = shapeCast S1x2048 (m ((c : Thread nD τ).loc main_arg7)) shapeCasts_S2048_S1x2048 := by
    show StableHlo.after hostOps0 (Hand.W0 m ρ c) (Proc.devRef .tc main_v7) = _
    dsimp only [hostOps0]; after_results; rfl
  rw [e]
  exact rowOf_shapeCast _ _

/-- The bias row read back is the argument. -/
theorem V1_v8 : rowOf (Hand.V1 m ρ c main_v8) = (m ((c : Thread nD τ).loc main_arg9)) := by
  have e : (Hand.V1 m ρ c main_v8 : S1x2048.Idx → EReal)
      = shapeCast S1x2048 (m ((c : Thread nD τ).loc main_arg9)) shapeCasts_S2048_S1x2048 := by
    show StableHlo.after hostOps0 (Hand.W0 m ρ c) (Proc.devRef .tc main_v8) = _
    dsimp only [hostOps0]; after_results; rfl
  rw [e]
  exact rowOf_shapeCast _ _

/-! ## The result -/

/-- The last operation joins the two result arrays along the feature axis. -/
theorem W3_out : (Hand.W3 m ρ c (Proc.devRef .tc main_v10) : Cert.Cell.SH.Idx → EReal)
    = concatenate S8192x4096 1 [⟨S8192x2048, Hand.W2 m ρ c (Proc.devRef .tc main_v9_0)⟩,
        ⟨S8192x2048, Hand.W2 m ρ c (Proc.devRef .tc main_v9_1)⟩] concatenates_S8192x2048_S8192x2048_S8192x4096_d1 := by
  show StableHlo.after hostOps1 (Hand.W2 m ρ c) (Proc.devRef .tc main_v10) = _
  dsimp only [hostOps1]; after_results

/-- The program's result array is the cell of its arguments, given the two result arrays of the grid at its end. -/
theorem out_cell
    (hre : ∀ V : (c : Dev nD) → (b : Ref sig .tc) → Buf (Elt Ideal) ((c : Thread nD τ).loc b),
      (Hand.dat0 V c).arrAt 11 cfg0.N = Cert.Cell.reArr (V c main_v0) (V c main_arg1) (V c main_v1) (rowOf (V c main_v5))
        (V c main_v2) (rowOf (V c main_v6)) (V c main_v3) (rowOf (V c main_v7)))
    (him : ∀ V : (c : Dev nD) → (b : Ref sig .tc) → Buf (Elt Ideal) ((c : Thread nD τ).loc b),
      (Hand.dat0 V c).arrAt 12 cfg0.N = Cert.Cell.imArr (V c main_v0) (V c main_arg1) (V c main_v1) (rowOf (V c main_v5))
        (V c main_v2) (rowOf (V c main_v6)) (V c main_v4) (rowOf (V c main_v8))) :
    Hand.W3 m ρ c (Proc.devRef .tc main_v10)
      = Cert.Cell.cell (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7))
          (m ((c : Thread nD τ).loc main_arg8)) (m ((c : Thread nD τ).loc main_arg9)) := by
  rw [W3_out, Hand.W2_re, Hand.W2_im, hre, him, V1_v0, V1_arg1, V1_v1, V1_v2, V1_v3, V1_v4, V1_v5, V1_v6, V1_v7, V1_v8]
  exact concat_cell _ _ _ _ _ _ _ _ _ _ _

end

end Cert.KernelIdeal.HandOut

end
-- ==== Proof.RefCell.lean ====
/-
  The reference program's result is the cell of `Spec`, index by index, on the extended reals.

  The reference stacks the four weight matrices by rows into one matrix of 8192 rows, and the four bias vectors into
  one vector of 8192 entries; row `b * 2048 + c` of the stack is row `c` of the `b`-th matrix, and likewise for the
  biases. The product of `e` with the transposed stack, plus the stacked bias, at row `r` and column `b * 2048 + c` is
  therefore the inner product of row `r` of `e` with row `c` of the `b`-th matrix plus the `b`-th bias at `c`: `lin`.
  The four column windows of width 2048 are the four projections; the quotient `1 / (1 + exp (-x))` is `gate` as
  written; the two windows of the state are its real and imaginary halves; the two combinations are `re` and `im`;
  and the last step lays them side by side, which is `cell`. Every sum is matched term by term.
-/
import proofs.«176958_j13529146982869_1_alg».proof.Proof.Gen.ReferenceIdeal.Read
import proofs.«176958_j13529146982869_1_alg».proof.Proof.Spec

noncomputable section

namespace Cert.ReferenceIdeal.RefValue

open Cert.ReferenceIdeal Cert.ReferenceIdeal.Read Idealize.ShloMosaic Idealize.ShloMosaic.ValueIdx Cert.Cell

/-! ## The stacked weights and biases at a row -/

/-- Row `c` of the stacked weights is row `c` of the first matrix. -/
theorem v0_at0 (x2 x4 x6 x8 : FVec Ideal S2048x2048 .f32) (c k : Fin 2048) :
    val_main_v0 (F := Ideal) x2 x4 x6 x8 (ix2 (⟨c.val, by omega⟩ : Fin 8192) k) = x2 (ix2 c k) := by
  unfold val_main_v0
  refine concatenate_apply_piece (t := S8192x2048) (0 : Fin 2)
    [⟨S2048x2048, x2⟩, ⟨S2048x2048, x4⟩, ⟨S2048x2048, x6⟩, ⟨S2048x2048, x8⟩] _ _ 0 (by simp) S2048x2048 x2 rfl rfl 0 rfl (ix2 c k)
    (fun b hb => ?_) ?_
  · match b with
    | ⟨0, _⟩ => exact absurd rfl hb
    | ⟨1, _⟩ => rfl
  · exact Nat.zero_add _

/-- Row `2048 + c` of the stacked weights is row `c` of the second matrix. -/
theorem v0_at1 (x2 x4 x6 x8 : FVec Ideal S2048x2048 .f32) (c k : Fin 2048) :
    val_main_v0 (F := Ideal) x2 x4 x6 x8 (ix2 (⟨2048 + c.val, by omega⟩ : Fin 8192) k) = x4 (ix2 c k) := by
  unfold val_main_v0
  refine concatenate_apply_piece (t := S8192x2048) (0 : Fin 2)
    [⟨S2048x2048, x2⟩, ⟨S2048x2048, x4⟩, ⟨S2048x2048, x6⟩, ⟨S2048x2048, x8⟩] _ _ 1 (by simp) S2048x2048 x4 rfl rfl 2048 rfl (ix2 c k)
    (fun b hb => ?_) ?_
  · match b with
    | ⟨0, _⟩ => exact absurd rfl hb
    | ⟨1, _⟩ => rfl
  · rfl

/-- Row `4096 + c` of the stacked weights is row `c` of the third matrix. -/
theorem v0_at2 (x2 x4 x6 x8 : FVec Ideal S2048x2048 .f32) (c k : Fin 2048) :
    val_main_v0 (F := Ideal) x2 x4 x6 x8 (ix2 (⟨4096 + c.val, by omega⟩ : Fin 8192) k) = x6 (ix2 c k) := by
  unfold val_main_v0
  refine concatenate_apply_piece (t := S8192x2048) (0 : Fin 2)
    [⟨S2048x2048, x2⟩, ⟨S2048x2048, x4⟩, ⟨S2048x2048, x6⟩, ⟨S2048x2048, x8⟩] _ _ 2 (by simp) S2048x2048 x6 rfl rfl 4096 rfl (ix2 c k)
    (fun b hb => ?_) ?_
  · match b with
    | ⟨0, _⟩ => exact absurd rfl hb
    | ⟨1, _⟩ => rfl
  · rfl

/-- Row `6144 + c` of the stacked weights is row `c` of the fourth matrix. -/
theorem v0_at3 (x2 x4 x6 x8 : FVec Ideal S2048x2048 .f32) (c k : Fin 2048) :
    val_main_v0 (F := Ideal) x2 x4 x6 x8 (ix2 (⟨6144 + c.val, by omega⟩ : Fin 8192) k) = x8 (ix2 c k) := by
  unfold val_main_v0
  refine concatenate_apply_piece (t := S8192x2048) (0 : Fin 2)
    [⟨S2048x2048, x2⟩, ⟨S2048x2048, x4⟩, ⟨S2048x2048, x6⟩, ⟨S2048x2048, x8⟩] _ _ 3 (by simp) S2048x2048 x8 rfl rfl 6144 rfl (ix2 c k)
    (fun b hb => ?_) ?_
  · match b with
    | ⟨0, _⟩ => exact absurd rfl hb
    | ⟨1, _⟩ => rfl
  · rfl

/-- Entry `c` of the stacked biases is entry `c` of the first bias. -/
theorem v1_at0 (x3 x5 x7 x9 : FVec Ideal S2048 .f32) (c : Fin 2048) :
    val_main_v1 (F := Ideal) x3 x5 x7 x9 (ix1 (⟨c.val, by omega⟩ : Fin 8192)) = x3 (ix1 c) := by
  unfold val_main_v1
  refine concatenate_apply_piece (t := S8192) (0 : Fin 1)
    [⟨S2048, x3⟩, ⟨S2048, x5⟩, ⟨S2048, x7⟩, ⟨S2048, x9⟩] _ _ 0 (by simp) S2048 x3 rfl rfl 0 rfl (ix1 c)
    (fun b hb => ?_) ?_
  · match b with
    | ⟨0, _⟩ => exact absurd rfl hb
  · exact Nat.zero_add _

/-- Entry `2048 + c` of the stacked biases is entry `c` of the second bias. -/
theorem v1_at1 (x3 x5 x7 x9 : FVec Ideal S2048 .f32) (c : Fin 2048) :
    val_main_v1 (F := Ideal) x3 x5 x7 x9 (ix1 (⟨2048 + c.val, by omega⟩ : Fin 8192)) = x5 (ix1 c) := by
  unfold val_main_v1
  refine concatenate_apply_piece (t := S8192) (0 : Fin 1)
    [⟨S2048, x3⟩, ⟨S2048, x5⟩, ⟨S2048, x7⟩, ⟨S2048, x9⟩] _ _ 1 (by simp) S2048 x5 rfl rfl 2048 rfl (ix1 c)
    (fun b hb => ?_) ?_
  · match b with
    | ⟨0, _⟩ => exact absurd rfl hb
  · rfl

/-- Entry `4096 + c` of the stacked biases is entry `c` of the third bias. -/
theorem v1_at2 (x3 x5 x7 x9 : FVec Ideal S2048 .f32) (c : Fin 2048) :
    val_main_v1 (F := Ideal) x3 x5 x7 x9 (ix1 (⟨4096 + c.val, by omega⟩ : Fin 8192)) = x7 (ix1 c) := by
  unfold val_main_v1
  refine concatenate_apply_piece (t := S8192) (0 : Fin 1)
    [⟨S2048, x3⟩, ⟨S2048, x5⟩, ⟨S2048, x7⟩, ⟨S2048, x9⟩] _ _ 2 (by simp) S2048 x7 rfl rfl 4096 rfl (ix1 c)
    (fun b hb => ?_) ?_
  · match b with
    | ⟨0, _⟩ => exact absurd rfl hb
  · rfl

/-- Entry `6144 + c` of the stacked biases is entry `c` of the fourth bias. -/
theorem v1_at3 (x3 x5 x7 x9 : FVec Ideal S2048 .f32) (c : Fin 2048) :
    val_main_v1 (F := Ideal) x3 x5 x7 x9 (ix1 (⟨6144 + c.val, by omega⟩ : Fin 8192)) = x9 (ix1 c) := by
  unfold val_main_v1
  refine concatenate_apply_piece (t := S8192) (0 : Fin 1)
    [⟨S2048, x3⟩, ⟨S2048, x5⟩, ⟨S2048, x7⟩, ⟨S2048, x9⟩] _ _ 3 (by simp) S2048 x9 rfl rfl 6144 rfl (ix1 c)
    (fun b hb => ?_) ?_
  · match b with
    | ⟨0, _⟩ => exact absurd rfl hb
  · rfl

/-! ## The index functions of the product and of the bias broadcast -/

theorem lidx_eq (r cc : Fin 8192) (k : Fin 2048) : lidx_main_v3 (ix2 r cc) k = ix2 r k := by
  funext a; match a with | ⟨0, _⟩ => rfl | ⟨1, _⟩ => rfl

theorem ridx_eq (r cc : Fin 8192) (k : Fin 2048) : idx_main_v2 (ridx_main_v3 (ix2 r cc) k) = ix2 cc k := by
  funext a; match a with | ⟨0, _⟩ => rfl | ⟨1, _⟩ => rfl

theorem bidx_eq (r cc : Fin 8192) : idx_main_v4 (idx_main_v5 (ix2 r cc)) = ix1 cc := by
  funext a; match a with | ⟨0, _⟩ => rfl

/-- The product with the transposed stack plus the stacked bias, at row `r` and column `cc`. -/
theorem v6_at (x0 : FVec Ideal S8192x2048 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r cc : Fin 8192) :
    val_main_v6 (F := Ideal) x0 x2 x3 x4 x5 x6 x7 x8 x9 (ix2 r cc)
      = (∑ k : Fin 2048, x0 (ix2 r k) * val_main_v0 (F := Ideal) x2 x4 x6 x8 (ix2 cc k))
          + val_main_v1 (F := Ideal) x3 x5 x7 x9 (ix1 cc) := by
  rw [val_main_v6_apply, val_main_v3_apply, val_main_v5_apply, val_main_v4_apply, bidx_eq]
  show (∑ k : Fin 2048, _) + _ = _
  congr 1
  refine Finset.sum_congr rfl fun k _ => ?_
  rw [val_main_v2_apply, lidx_eq, ridx_eq]

/-! ## The four projections -/

theorem idx_v7_eq (r : Fin 8192) (c : Fin 2048) : idx_main_v7 (ix2 r c) = ix2 r (⟨c.val, by omega⟩ : Fin 8192) := by
  funext a; match a with | ⟨0, _⟩ => rfl | ⟨1, _⟩ => rfl

/-- Columns `[0, 2048)` of the product: the projection by the first matrix and bias. -/
theorem v7_at (x0 : FVec Ideal S8192x2048 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r : Fin 8192) (c : Fin 2048) :
    val_main_v7 (F := Ideal) x0 x2 x3 x4 x5 x6 x7 x8 x9 (ix2 r c) = lin x0 x2 x3 r c := by
  rw [val_main_v7_apply, idx_v7_eq, v6_at, v1_at0]
  unfold lin
  congr 1
  exact Finset.sum_congr rfl fun k _ => by rw [v0_at0]

theorem idx_v8_eq (r : Fin 8192) (c : Fin 2048) : idx_main_v8 (ix2 r c) = ix2 r (⟨2048 + c.val, by omega⟩ : Fin 8192) := by
  funext a; match a with | ⟨0, _⟩ => rfl | ⟨1, _⟩ => rfl

/-- Columns `[2048, 4096)` of the product: the projection by the second matrix and bias. -/
theorem v8_at (x0 : FVec Ideal S8192x2048 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r : Fin 8192) (c : Fin 2048) :
    val_main_v8 (F := Ideal) x0 x2 x3 x4 x5 x6 x7 x8 x9 (ix2 r c) = lin x0 x4 x5 r c := by
  rw [val_main_v8_apply, idx_v8_eq, v6_at, v1_at1]
  unfold lin
  congr 1
  exact Finset.sum_congr rfl fun k _ => by rw [v0_at1]

theorem idx_v9_eq (r : Fin 8192) (c : Fin 2048) : idx_main_v9 (ix2 r c) = ix2 r (⟨4096 + c.val, by omega⟩ : Fin 8192) := by
  funext a; match a with | ⟨0, _⟩ => rfl | ⟨1, _⟩ => rfl

/-- Columns `[4096, 6144)` of the product: the projection by the third matrix and bias. -/
theorem v9_at (x0 : FVec Ideal S8192x2048 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r : Fin 8192) (c : Fin 2048) :
    val_main_v9 (F := Ideal) x0 x2 x3 x4 x5 x6 x7 x8 x9 (ix2 r c) = lin x0 x6 x7 r c := by
  rw [val_main_v9_apply, idx_v9_eq, v6_at, v1_at2]
  unfold lin
  congr 1
  exact Finset.sum_congr rfl fun k _ => by rw [v0_at2]

theorem idx_v10_eq (r : Fin 8192) (c : Fin 2048) : idx_main_v10 (ix2 r c) = ix2 r (⟨6144 + c.val, by omega⟩ : Fin 8192) := by
  funext a; match a with | ⟨0, _⟩ => rfl | ⟨1, _⟩ => rfl

/-- Columns `[6144, 8192)` of the product: the projection by the fourth matrix and bias. -/
theorem v10_at (x0 : FVec Ideal S8192x2048 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r : Fin 8192) (c : Fin 2048) :
    val_main_v10 (F := Ideal) x0 x2 x3 x4 x5 x6 x7 x8 x9 (ix2 r c) = lin x0 x8 x9 r c := by
  rw [val_main_v10_apply, idx_v10_eq, v6_at, v1_at3]
  unfold lin
  congr 1
  exact Finset.sum_congr rfl fun k _ => by rw [v0_at3]

/-! ## The gate, the halves of the state, and the two combinations -/

/-- The quotient `1 / (1 + exp (-p))` of the first projection is the gate. -/
theorem v16_at (x0 : FVec Ideal S8192x2048 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r : Fin 8192) (c : Fin 2048) :
    val_main_v16 (F := Ideal) x0 x2 x3 x4 x5 x6 x7 x8 x9 (ix2 r c) = gate (lin x0 x2 x3 r c) := by
  rw [val_main_v16_apply, val_main_v15_apply, val_main_cst_0_apply, val_main_v14_apply, val_main_v13_apply,
    val_main_cst_apply, val_main_v12_apply, val_main_v11_apply, v7_at]
  rfl

theorem idx_v19_eq (r : Fin 8192) (c : Fin 2048) : idx_main_v19 (ix2 r c) = ix2 r (lo c) := by
  funext a; match a with | ⟨0, _⟩ => rfl | ⟨1, _⟩ => rfl

theorem idx_v20_eq (r : Fin 8192) (c : Fin 2048) : idx_main_v20 (ix2 r c) = ix2 r (hi c) := by
  funext a; match a with | ⟨0, _⟩ => rfl | ⟨1, _⟩ => rfl

/-- The first combination is the real half of the new state. -/
theorem v31_at (x0 : FVec Ideal S8192x2048 .f32) (x1 : FVec Ideal S8192x4096 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r : Fin 8192) (c : Fin 2048) :
    val_main_v31 (F := Ideal) x0 x1 x2 x3 x4 x5 x6 x7 x8 x9 (ix2 r c) = re x0 x1 x2 x3 x4 x5 x6 x7 r c := by
  rw [val_main_v31_apply, val_main_v29_apply, val_main_v30_apply, val_main_v28_apply, val_main_v27_apply,
    val_main_cst_1_apply, val_main_v23_apply, val_main_v21_apply, val_main_v22_apply, val_main_v17_apply,
    val_main_v18_apply, val_main_v19_apply, val_main_v20_apply, idx_v19_eq, idx_v20_eq, v16_at, v8_at, v9_at]
  rfl

/-- The second combination is the imaginary half of the new state. -/
theorem v36_at (x0 : FVec Ideal S8192x2048 .f32) (x1 : FVec Ideal S8192x4096 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) (r : Fin 8192) (c : Fin 2048) :
    val_main_v36 (F := Ideal) x0 x1 x2 x3 x4 x5 x6 x7 x8 x9 (ix2 r c) = im x0 x1 x2 x3 x4 x5 x8 x9 r c := by
  rw [val_main_v36_apply, val_main_v34_apply, val_main_v35_apply, val_main_v33_apply, val_main_v32_apply,
    val_main_cst_2_apply, val_main_v26_apply, val_main_v24_apply, val_main_v25_apply, val_main_v17_apply,
    val_main_v18_apply, val_main_v19_apply, val_main_v20_apply, idx_v19_eq, idx_v20_eq, v16_at, v8_at, v10_at]
  rfl

/-! ## The result -/

/-- The reference's result is the cell. -/
theorem ref_cell (x0 : FVec Ideal S8192x2048 .f32) (x1 : FVec Ideal S8192x4096 .f32) (x2 : FVec Ideal S2048x2048 .f32) (x3 : FVec Ideal S2048 .f32) (x4 : FVec Ideal S2048x2048 .f32) (x5 : FVec Ideal S2048 .f32) (x6 : FVec Ideal S2048x2048 .f32) (x7 : FVec Ideal S2048 .f32) (x8 : FVec Ideal S2048x2048 .f32) (x9 : FVec Ideal S2048 .f32) :
    Cert.ReferenceIdeal.Read.val_main_v37 (F := Ideal) x0 x1 x2 x3 x4 x5 x6 x7 x8 x9 = Cert.Cell.cell x0 x1 x2 x3 x4 x5 x6 x7 x8 x9 := by
  funext j
  obtain ⟨r, c', rfl⟩ : ∃ (r : Fin 8192) (c' : Fin 4096), j = ix2 r c' := ⟨j 0, j 1, eq_ix2 j⟩
  unfold val_main_v37 cell
  by_cases hlt : c'.val < 2048
  · rw [dif_pos (show ((ix2 r c') 1).val < 2048 from hlt)]
    refine (concatenate_pair_apply_left (t := S8192x4096) (s₁ := S8192x2048) (s₂ := S8192x2048) (1 : Fin 2) _ _ _ (ix2 r c') rfl (ix2 r (⟨c'.val, hlt⟩ : Fin 2048))
      (fun b => ?_)).trans (v31_at x0 x1 x2 x3 x4 x5 x6 x7 x8 x9 r _)
    match b with
    | ⟨0, _⟩ => rfl
    | ⟨1, _⟩ => rfl
  · rw [dif_neg (show ¬((ix2 r c') 1).val < 2048 from hlt)]
    have hc := c'.isLt
    refine (concatenate_pair_apply_right (t := S8192x4096) (s₁ := S8192x2048) (s₂ := S8192x2048) (1 : Fin 2) _ _ _ (ix2 r c') rfl rfl
      (ix2 r (⟨c'.val - 2048, by omega⟩ : Fin 2048)) (fun b hb => ?_) ?_).trans (v36_at x0 x1 x2 x3 x4 x5 x6 x7 x8 x9 r _)
    · match b with
      | ⟨0, _⟩ => rfl
      | ⟨1, _⟩ => exact absurd rfl hb
    · show c'.val - 2048 + 2048 = c'.val
      omega

end Cert.ReferenceIdeal.RefValue

end
-- ==== Proof.Claims.lean ====
/-
  The five claims of the cell's certificate.

  Frames: each kernel program runs to the end, faults nowhere and leaves its arguments as launched (the run of its
  three items; the arguments are written by none of them); the reference's frame is its run with the result dropped.
  The idealization rewrote nothing, so `preserves` asks nothing. At the exact-real instance the kernel program's result
  array is the cell function of the argument arrays — each tile of each half written by the grid point that covers it,
  the two halves joined along the feature axis — and so is the reference's; from memories that agree on the arguments
  the two results are equal. No finiteness of the inputs is used: the two sides are the same expression of the same
  sums, term by term.
-/
import proofs.«176958_j13529146982869_1_alg».proof.Defs
import proofs.«176958_j13529146982869_1_alg».proof.Proof.KFrame
import proofs.«176958_j13529146982869_1_alg».proof.Proof.KIFrame
import proofs.«176958_j13529146982869_1_alg».proof.Proof.KIValue
import proofs.«176958_j13529146982869_1_alg».proof.Proof.KIOut
import proofs.«176958_j13529146982869_1_alg».proof.Proof.RefCell
import proofs.«176958_j13529146982869_1_alg».proof.Proof.Gen.ReferenceIdeal.Run
import proofs.«176958_j13529146982869_1_alg».proof.Proof.Gen.ReferenceIdeal.Read
import proofs.«176958_j13529146982869_1_alg».proof.Proof.Gen.Pre_finite_inputs

noncomputable section

namespace Cert.Proof.CellClaims

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the cell function of the argument arrays in their result. -/
theorem algebraic : Cert.algebraic_KernelIdeal_ReferenceIdeal := by
  intro m ρ m' ρ' _ hagree
  refine ⟨fun c => Cert.Cell.cell (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono (fun r h c =>
      ⟨(h c _ (Cert.KernelIdeal.Hand.mem_uc Cert.KernelIdeal.main_v10 (by decide))).trans
          (Cert.KernelIdeal.HandOut.out_cell m ρ c (fun V => Cert.KernelIdeal.HandValue.arr_re V c) (fun V => Cert.KernelIdeal.HandValue.arr_im V c)),
       (h c _ (Cert.KernelIdeal.Hand.mem_uc Cert.KernelIdeal.main_arg0 (by decide))).trans (Cert.KernelIdeal.Hand.W3_main_arg0 m ρ c),
       (h c _ (Cert.KernelIdeal.Hand.mem_uc Cert.KernelIdeal.main_arg1 (by decide))).trans (Cert.KernelIdeal.Hand.W3_main_arg1 m ρ c),
       (h c _ (Cert.KernelIdeal.Hand.mem_uc Cert.KernelIdeal.main_arg2 (by decide))).trans (Cert.KernelIdeal.Hand.W3_main_arg2 m ρ c),
       (h c _ (Cert.KernelIdeal.Hand.mem_uc Cert.KernelIdeal.main_arg3 (by decide))).trans (Cert.KernelIdeal.Hand.W3_main_arg3 m ρ c),
       (h c _ (Cert.KernelIdeal.Hand.mem_uc Cert.KernelIdeal.main_arg4 (by decide))).trans (Cert.KernelIdeal.Hand.W3_main_arg4 m ρ c),
       (h c _ (Cert.KernelIdeal.Hand.mem_uc Cert.KernelIdeal.main_arg5 (by decide))).trans (Cert.KernelIdeal.Hand.W3_main_arg5 m ρ c),
       (h c _ (Cert.KernelIdeal.Hand.mem_uc Cert.KernelIdeal.main_arg6 (by decide))).trans (Cert.KernelIdeal.Hand.W3_main_arg6 m ρ c),
       (h c _ (Cert.KernelIdeal.Hand.mem_uc Cert.KernelIdeal.main_arg7 (by decide))).trans (Cert.KernelIdeal.Hand.W3_main_arg7 m ρ c),
       (h c _ (Cert.KernelIdeal.Hand.mem_uc Cert.KernelIdeal.main_arg8 (by decide))).trans (Cert.KernelIdeal.Hand.W3_main_arg8 m ρ c),
       (h c _ (Cert.KernelIdeal.Hand.mem_uc Cert.KernelIdeal.main_arg9 (by decide))).trans (Cert.KernelIdeal.Hand.W3_main_arg9 m ρ c)⟩)
      (Cert.KernelIdeal.Hand.run (F := Ideal) m ρ)
  · refine (θ_run Cert.ReferenceIdeal.defs _ _).mono (fun r h c => ⟨?_, (h c).2⟩) (Cert.ReferenceIdeal.Value.run (F := Ideal) m' ρ')
    obtain ⟨e0, e1, e2, e3, e4, e5, e6, e7, e8, e9⟩ := hagree c
    rw [(h c).1, Cert.ReferenceIdeal.Read.val_main_v37_eq, Cert.ReferenceIdeal.RefValue.ref_cell, e0, e1, e2, e3, e4, e5, e6, e7, e8, e9]

end Cert.Proof.CellClaims

end
-- ==== Proof.lean ====
/-
  The certificate of the complex-valued recurrent cell: a Pallas kernel that tiles the batch and the feature axis,
  forms the four projections of the input on each tile, and rotates and gates the state there, against the plain
  reference that fuses the four projections into one product and splits it.

  The kernel programs' frames are proved from the run of @main's three items — the host operations that prepare the
  operands, the kernel region over its 8 × 8 grid (the state array read through two windows, its share halved between
  them), the host operation that joins the two result arrays — (Proof/KBody … KFrame for the program as printed,
  Proof/KIBody … KIFrame for its idealization); the value of the idealized kernel's result (Proof/PayCell, KIValue,
  KIOut) and of the reference's (Proof/RefCell) are both the one function Proof/Spec states; Proof/Claims assembles
  the five claims behind the witnesses of the programs' stated facts.
-/
import proofs.«176958_j13529146982869_1_alg».proof.Defs
import proofs.«176958_j13529146982869_1_alg».proof.Proof.Claims
import proofs.«176958_j13529146982869_1_alg».proof.Proof.Gen.Kernel
import proofs.«176958_j13529146982869_1_alg».proof.Proof.Gen.KernelIdeal
import proofs.«176958_j13529146982869_1_alg».proof.Proof.Gen.ReferenceIdeal
import proofs.«176958_j13529146982869_1_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    CellClaims.frame_k, CellClaims.frame_ki, CellClaims.frame_ri, CellClaims.preserves, CellClaims.algebraic⟩

end Cert.Proof

end
